-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S8x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S512x100 : Shape := ⟨2, ![512, 100]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S512x100 : S_.BroadcastsInDim S512x100 (![] : Fin 0 → Fin S512x100.rank)
  reducesTo_S512x100_S_d0_1 : S512x100.ReducesTo [0, 1] S_

variable [Facts]

def fn {F : FTy → Type} [FloatOps F] (main_arg0 : FVec F S512x64 .f32) (main_arg1 : FVec F S512x100 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S512x100 .f32 := Host.absf main_arg1
  let main_cst_0 : FVec F S_ .f32 := constant S_ .f32 0x7F800000#32
  let main_v5 : FVec F S512x100 .f32 := broadcastInDim S512x100 ![] bcast_S_S512x100 main_cst_0
  let main_v6 : IVec S512x100 1 := cmpf .olt main_v4 main_v5
  let main_c_1 : IVec S_ 1 := constantI S_ 1 1#1
  let main_v7 : IVec S_ 1 := (fun x v => Host.reduce IntOp.andi x v reducesTo_S512x100_S_d0_1 h_S_) main_v6 main_c_1
  let main_v8 : IVec S_ 1 := andi main_v3 main_v7
  main_v8
-- ==== Kernel.lean ====
abbrev S512x64 : Shape := ⟨2, ![512, 64]⟩
abbrev S512x100 : Shape := ⟨2, ![512, 100]⟩
abbrev S_ : Shape := ⟨0, ![]⟩
abbrev S512x128 : Shape := ⟨2, ![512, 128]⟩
abbrev S64x1x128 : Shape := ⟨3, ![64, 1, 128]⟩
abbrev S1x1x128 : Shape := ⟨3, ![1, 1, 128]⟩
abbrev S8x64 : Shape := ⟨2, ![8, 64]⟩
abbrev S8x128 : Shape := ⟨2, ![8, 128]⟩
abbrev S8x512 : Shape := ⟨2, ![8, 512]⟩
abbrev S8 : Shape := ⟨1, ![8]⟩
abbrev S8x512x1 : Shape := ⟨3, ![8, 512, 1]⟩
abbrev S8x1x512 : Shape := ⟨3, ![8, 1, 512]⟩
abbrev S8x512x512 : Shape := ⟨3, ![8, 512, 512]⟩
abbrev S1x8 : Shape := ⟨2, ![1, 8]⟩
abbrev S1 : Shape := ⟨1, ![1]⟩
abbrev S1x1 : Shape := ⟨2, ![1, 1]⟩
abbrev S1x8x64 : Shape := ⟨3, ![1, 8, 64]⟩
abbrev S1x1x1 : Shape := ⟨3, ![1, 1, 1]⟩
abbrev S64x128 : Shape := ⟨2, ![64, 128]⟩
abbrev S128 : Shape := ⟨1, ![128]⟩

abbrev nBuf : Space → Nat
  | .hbm => 27
  | .vmem => 4
  | .smem => 0
  | _ => 0

abbrev bufTy : (tb : Table) → Fin (tcTables nBuf tb) → BufTy
  | .hbm, ⟨0, _⟩ => ⟨S512x64, .f32⟩
  | .hbm, ⟨1, _⟩ => ⟨S512x100, .f32⟩
  | .hbm, ⟨2, _⟩ => ⟨S_, .i32⟩
  | .hbm, ⟨3, _⟩ => ⟨S_, .f32⟩
  | .hbm, ⟨4, _⟩ => ⟨S512x128, .f32⟩
  | .hbm, ⟨5, _⟩ => ⟨S64x1x128, .f32⟩
  | .hbm, ⟨6, _⟩ => ⟨S64x128, .f32⟩
  | .hbm, ⟨7, _⟩ => ⟨S_, .f32⟩
  | .hbm, ⟨8, _⟩ => ⟨S128, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x64, .f32⟩
  | .local _ .vmem, ⟨1, _⟩ => ⟨S512x128, .f32⟩
  | .local _ .vmem, ⟨2, _⟩ => ⟨S1x1x128, .f32⟩
  | .local _ .vmem, ⟨3, _⟩ => ⟨S1x1x128, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [BitOps F]

abbrev grid0 : Pipeline.Grid := ⟨1, ![64], ![false]⟩

def k0_off1 (i : grid0.Coords) : Fin 2 → Nat :=
  let arg0 : BitVec 32 := BitVec.ofNat 32 (i 0).val
  let c8_i32 : BitVec 32 := 8#32
  let v0 : BitVec 32 := Scalar.muli arg0 c8_i32
  let v1 : Index := Scalar.indexCast v0
  let c0 : Index := 0#32
  ![v1.toNat, 0]
def k0_off2 (i : grid0.Coords) : Fin 2 → Nat :=
  let arg0 : BitVec 32 := BitVec.ofNat 32 (i 0).val
  let c8_i32_0 : BitVec 32 := 8#32
  let v3 : BitVec 32 := Scalar.muli arg0 c8_i32_0
  let v4 : Index := Scalar.indexCast v3
  let c0_1 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S512x100_S512x128_000_0280 : S512x100.Pads (![0, 0] : Fin 2 → Nat) ![0, 28] ![0, 0] S512x128
  h_S_ : 0 < S_.numel
  h_S8x64 : 0 < S8x64.numel
  h_S8x128 : 0 < S8x128.numel
  shapeCasts_S8x128_S8x128 : S8x128.ShapeCasts S8x128
  inb_S512x64_S512x64_0_0 : ∀ a, (![0, 0] : Fin 2 → Nat) a + S512x64.size a ≤ S512x64.size a
  h_S512x64 : 0 < S512x64.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  natLt_1_32 : 1 < 32
  reduces_S8x512_S8 : S8x512.Reduces [1] S8
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [1] S8x512
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S8x64_S1x8x64 : S8x64.ShapeCasts S1x8x64
  reduces_S1x8x64_S1 : S1x8x64.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  inb_S1x1x128_S1x1x128_0_0_0 : ∀ a, (![0, 0, 0] : Fin 3 → Nat) a + S1x1x128.size a ≤ S1x1x128.size a
  h_S1x1x128 : 0 < S1x1x128.numel
  shapeCasts_S64x1x128_S64x128 : S64x1x128.ShapeCasts S64x128
  reducesTo_S64x128_S128_d0 : S64x128.ReducesTo [0] S128
  slices_S128_S1_0 : S128.Slices ![0] S1
  shapeCasts_S1_S_ : S1.ShapeCasts S_
  slices_S128_S1_1 : S128.Slices ![1] S1
  slices_S128_S1_2 : S128.Slices ![2] S1
  dot_S8x64_S512x64_S8x512_1_1_0_0_n_n_wf : DotDims.WF S8x64 S512x64 S8x512 [1] [1] [0] [0] [] []
  dot_S8x128_S512x128_S8x512_1_1_0_0_n_n_wf : DotDims.WF S8x128 S512x128 S8x512 [1] [1] [0] [0] [] []
  hrank0 : 0 < grid0.rank
  k0_off1_inb : ∀ i : grid0.Coords, ∀ a, (k0_off1 i) a + S8x64.size a ≤ S512x64.size a
  k0_off2_inb : ∀ i : grid0.Coords, ∀ a, (k0_off2 i) a + S8x128.size a ≤ S512x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S512x64.size a
  hwx0_0 : ∀ i : grid0.Coords, EltTy.bits .f32 = 32 ∨ (Rect.block (s := S512x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S64x1x128.size a
  hwx0_2 : ∀ i : grid0.Coords, EltTy.bits .f32 = 32 ∨ (Rect.block (s := S64x1x128) S1x1x128.size (cc0_transform_2 i) (hinb0_2 i)).WholeWords (EltTy.packing .f32)

variable [Facts₀]

def dot_S8x64_S512x64_S8x512_1_1_0_0_n_n : DotDims S8x64 S512x64 S8x512 where
  lhsContracting := [1]
  rhsContracting := [1]
  lhsNonContracting := [0]
  rhsNonContracting := [0]
  lhsBatch := []
  rhsBatch := []
  wf := dot_S8x64_S512x64_S8x512_1_1_0_0_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

abbrev win0_0 : Pipeline.Window sig grid0 :=
  Pipeline.Window.ofSpec (Memref.whole main_arg0) S512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x64 : Shape := ⟨2, ![512, 64]⟩
abbrev S512x100 : Shape := ⟨2, ![512, 100]⟩
abbrev S64x512 : Shape := ⟨2, ![64, 512]⟩
abbrev S512x512 : Shape := ⟨2, ![512, 512]⟩
abbrev S100x512 : Shape := ⟨2, ![100, 512]⟩
abbrev S_ : Shape := ⟨0, ![]⟩
abbrev S512 : Shape := ⟨1, ![512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 83
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x100, .f32⟩
  | .hbm, ⟨2, _⟩ => ⟨S64x512, .f32⟩
  | .hbm, ⟨3, _⟩ => ⟨S512x512, .f32⟩
  | .hbm, ⟨4, _⟩ => ⟨S100x512, .f32⟩
  | .hbm, ⟨5, _⟩ => ⟨S512x512, .f32⟩
  | .hbm, ⟨6, _⟩ => ⟨S_, .f32⟩
  | .hbm, ⟨7, _⟩ => ⟨S512x512, .f32⟩
  | .hbm, ⟨8, _⟩ => ⟨S512x512, .i1⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .i1⟩
  | .hbm, ⟨20, _⟩ => ⟨S_, .f32⟩
  | .hbm, ⟨21, _⟩ => ⟨S512, .f32⟩
  | .hbm, ⟨22, _⟩ => ⟨S512, .i1⟩
  | .hbm, ⟨23, _⟩ => ⟨S512, .i1⟩
  | .hbm, ⟨24, _⟩ => ⟨S512x512x1, .f32⟩
  | .hbm, ⟨25, _⟩ => ⟨S512x1x512, .f32⟩
  | .hbm, ⟨26, _⟩ => ⟨S512x512x512, .f32⟩
  | .hbm, ⟨27, _⟩ => ⟨S512x512x512, .f32⟩
  | .hbm, ⟨28, _⟩ => ⟨S512x512x512, .f32⟩
  | .hbm, ⟨29, _⟩ => ⟨S_, .f32⟩
  | .hbm, ⟨30, _⟩ => ⟨S512x512x512, .f32⟩
  | .hbm, ⟨31, _⟩ => ⟨S512x512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x512x512, .f32⟩
  | .hbm, ⟨36, _⟩ => ⟨S512x512x512, .f32⟩
  | .hbm, ⟨37, _⟩ => ⟨S_, .f32⟩
  | .hbm, ⟨38, _⟩ => ⟨S512x512x512, .f32⟩
  | .hbm, ⟨39, _⟩ => ⟨S512x512x512, .f32⟩
  | .hbm, ⟨40, _⟩ => ⟨S512x512x512, .f32⟩
  | .hbm, ⟨41, _⟩ => ⟨S512x512x512, .f32⟩
  | .hbm, ⟨42, _⟩ => ⟨S512x512x512, .f32⟩
  | .hbm, ⟨43, _⟩ => ⟨S512x512x1, .f32⟩
  | .hbm, ⟨44, _⟩ => ⟨S512x1x512, .f32⟩
  | .hbm, ⟨45, _⟩ => ⟨S512x512x512, .f32⟩
  | .hbm, ⟨46, _⟩ => ⟨S512x512x512, .f32⟩
  | .hbm, ⟨47, _⟩ => ⟨S512x512x512, .f32⟩
  | .hbm, ⟨48, _⟩ => ⟨S512, .f32⟩
  | .hbm, ⟨49, _⟩ => ⟨S_, .f32⟩
  | .hbm, ⟨50, _⟩ => ⟨S512, .f32⟩
  | .hbm, ⟨51, _⟩ => ⟨S512, .f32⟩
  | .hbm, ⟨52, _⟩ => ⟨S512x512x512, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S512, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S512x64, .f32⟩
  | .hbm, ⟨74, _⟩ => ⟨S512x64, .f32⟩
  | .hbm, ⟨75, _⟩ => ⟨S512x64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_cst_7 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_cst_13 : Ref sig .tc := ⟨.hbm, 68, rfl⟩
abbrev main_v44 : Ref sig .tc := ⟨.hbm, 69, rfl⟩
abbrev main_v45 : Ref sig .tc := ⟨.hbm, 70, rfl⟩
abbrev main_cst_14 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_cst_17 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  transposes_S512x64_S64x512_1_0 : S512x64.Transposes [1, 0] S64x512
  transposes_S512x100_S100x512_1_0 : S512x100.Transposes [1, 0] S100x512
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S512_d1_2 : S512x512x512.ReducesTo [1, 2] S512
  natLt_1_32 : 1 < 32
  reducesTo_S512_S_d0 : S512.ReducesTo [0] S_
  reducesTo_S512x64_S_d0_1 : S512x64.ReducesTo [0, 1] S_
  dot_S512x64_S64x512_S512x512_1_0_0_1_n_n_wf : DotDims.WF S512x64 S64x512 S512x512 [1] [0] [0] [1] [] []
  dot_S512x100_S100x512_S512x512_1_0_0_1_n_n_wf : DotDims.WF S512x100 S100x512 S512x512 [1] [0] [0] [1] [] []

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x100_S100x512_S512x512_1_0_0_1_n_n : DotDims S512x100 S100x512 S512x512 where
  lhsContracting := [1]
  rhsContracting := [0]
  lhsNonContracting := [0]
  rhsNonContracting := [1]
  lhsBatch := []
  rhsBatch := []
  wf := dot_S512x100_S100x512_S512x512_1_0_0_1_n_n_wf

class Facts : Prop extends Facts₀ where

variable [Facts]
-- ==== Proof.Spec.lean ====
/-
  The ranking loss as one function of the two input arrays, over the extended reals.

  For codes `u : [512, 64]` and labels `y : [512, 100]`: the inner products `ip r p = Σ_k u r k · u p k`, the label
  overlaps `sim r p = Σ_c y r c · y p c`, the indicator `pos r p` of `sim r p > 0` and its complement
  `neg r p = 1 - pos r p`; per row the counts `npos r = Σ_p pos r p`, `nneg r = Σ_p neg r p`; the pairwise margin
  `marg r p n = log1p (exp t) - t` at `t = ip r p - ip r n - 5` clamped to `[-100, 50]`; the row's masked sum
  `num r = Σ_p Σ_n marg r p n · (pos r p · neg r n)` over (positive, negative) pairs, divided by
  `max (npos r · nneg r) 1`; a row counts when both counts are positive; the loss is the mean of the counting rows'
  values (zero when none counts) plus the mean of `(u - sign u)²` over all 512 · 64 entries.

  The float literals stay as the words the programs print; only `0` and `1` are ever evaluated.
-/
import Idealize.ShloMosaic.PureOps.Ideal
import Idealize.ShloMosaic.Lib.ValueIdx
import Idealize.ShloMosaic.Lib.IdealHost

noncomputable section

open scoped BigOperators

namespace Cert.Dtsh

open Idealize.ShloMosaic Idealize.ShloMosaic.ValueIdx

/-- The shapes of the two inputs. -/
abbrev SU : Shape := ⟨2, ![512, 64]⟩
abbrev SY : Shape := ⟨2, ![512, 100]⟩

/-- The literals, as the words both programs print. -/
abbrev zeroLit : EReal := Ideal.ofBits .f32 0x00000000#32
abbrev oneLit : EReal := Ideal.ofBits .f32 0x3F800000#32
abbrev negOneLit : EReal := Ideal.ofBits .f32 0xBF800000#32
abbrev fiveLit : EReal := Ideal.ofBits .f32 0x40A00000#32
abbrev loLit : EReal := Ideal.ofBits .f32 0xC2C80000#32
abbrev hiLit : EReal := Ideal.ofBits .f32 0x42480000#32
abbrev sizeLit : EReal := Ideal.ofBits .f32 0x47000000#32

theorem zeroLit_eq : zeroLit = 0 := Ideal.ofBits_zero_f32
theorem oneLit_eq : oneLit = 1 := Ideal.ofBits_one_f32

/-- A one-bit word as the extended real `0` or `1`. -/
def ind (b : BitVec 1) : EReal := ((b.toNat : ℝ) : EReal)

theorem ind_zero : ind 0#1 = 0 := by simp [ind]
theorem ind_one : ind 1#1 = 1 := by simp [ind]

theorem ind_cases (b : BitVec 1) : ind b = 0 ∨ ind b = 1 := by
  by_cases h : b = 1#1
  · right; rw [h]; exact ind_one
  · left; rw [eq_zero_of_ne_one h]; exact ind_zero

/-- Widening the bit to 32 bits and reading it as a signed integer gives the same `0` or `1`. -/
theorem ind_setWidth (b : BitVec 1) : ((((b.setWidth 32).toInt : ℤ) : ℝ) : EReal) = ind b := by
  by_cases h : b = 1#1
  · rw [h]; simp [ind]
  · rw [eq_zero_of_ne_one h]; simp [ind]

section
variable (u : SU.Idx → EReal) (y : SY.Idx → EReal)

/-- Inner product of rows `r` and `p` of `u`. -/
def ip (r p : Fin 512) : EReal := ∑ k : Fin 64, u (ix2 r k) * u (ix2 p k)
/-- Label overlap of rows `r` and `p` of `y`. -/
def sim (r p : Fin 512) : EReal := ∑ c : Fin 100, y (ix2 r c) * y (ix2 p c)
/-- `1` when the labels of `r` and `p` overlap, else `0`. -/
def pos (r p : Fin 512) : EReal := ind (Ideal.cmp .ogt (sim y r p) zeroLit)
/-- Its complement. -/
def neg (r p : Fin 512) : EReal := oneLit - pos y r p
/-- How many rows overlap with `r`, and how many do not. -/
def npos (r : Fin 512) : EReal := ∑ p : Fin 512, pos y r p
def nneg (r : Fin 512) : EReal := ∑ p : Fin 512, neg y r p
/-- The clamped margin of the triple `(r, p, n)`. -/
def clipd (r p n : Fin 512) : EReal := min hiLit (max loLit (ip u r p - ip u r n - fiveLit))
/-- Its softplus loss `log (1 + e^t) - t`. -/
def marg (r p n : Fin 512) : EReal := Ideal.log1p (Ideal.exp (clipd u r p n)) - clipd u r p n
/-- The row's sum over (positive, negative) pairs. -/
def num (r : Fin 512) : EReal := ∑ p : Fin 512, ∑ n : Fin 512, marg u r p n * (pos y r p * neg y r n)
/-- The row counts when it has a positive and a negative. -/
def validBit (r : Fin 512) : BitVec 1 :=
  IntOp.andi (Ideal.cmp .ogt (npos y r) zeroLit) (Ideal.cmp .ogt (nneg y r) zeroLit)
/-- The row's mean over its pairs. -/
def rowLoss (r : Fin 512) : EReal := Ideal.div (num u y r) (max (npos y r * nneg y r) oneLit)
/-- What the row adds to the total. -/
def contrib (r : Fin 512) : EReal := Scalar.select (validBit y r) (rowLoss u y r) zeroLit
/-- The total over rows, and the number of counting rows. -/
def lossSum : EReal := ∑ r : Fin 512, contrib u y r
def count : EReal := ∑ r : Fin 512, ind (validBit y r)
/-- The squared distance of one entry from its sign. -/
def quantAt (x : EReal) : EReal := (x - Ideal.sign x) * (x - Ideal.sign x)
/-- Summed over all entries. -/
def quant : EReal := ∑ r : Fin 512, ∑ k : Fin 64, quantAt (u (ix2 r k))
/-- The first term: the mean over counting rows. -/
def loss1 : EReal :=
  Scalar.select (Ideal.cmp .ogt (count y) zeroLit) (Ideal.div (lossSum u y) (max (count y) oneLit)) zeroLit
/-- The loss. -/
def loss : EReal := loss1 u y + oneLit * Ideal.div (quant u) sizeLit

end

end Cert.Dtsh

end
-- ==== Proof.RefSums.lean ====
/-
  Sums over index sets of rank one and three by coordinates, and the sum over the last two axes of a
  rank-three array read at a row.
-/
import Idealize.ShloMosaic.PureOps.Ideal
import Idealize.ShloMosaic.PureOps.Reduce
import Idealize.ShloMosaic.Lib.ValueIdx

noncomputable section

open scoped BigOperators

namespace Cert.Dtsh

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the last two coordinates of a rank-3 index leaves the row r exactly when its first coordinate is r. -/
theorem drop12_eq_iff (h : (⟨3, ![512, 512, 512]⟩ : Shape).ReducesTo [1, 2] ⟨1, ![512]⟩)
    (i : (⟨3, ![512, 512, 512]⟩ : Shape).Idx) (r : Fin 512) : h.drop i = ix1 r ↔ i 0 = r := by
  have hv : ((h.drop i 0 : Fin _) : Nat) = (i 0 : Fin _) := Shape.ReducesTo.drop_apply_val_of_eq h i 0 0
  constructor
  · intro e
    exact Fin.ext (hv.symm.trans (congrArg Fin.val (congrFun e 0)))
  · intro e
    funext b
    match b with
    | ⟨0, _⟩ => exact Fin.ext (hv.trans (congrArg Fin.val e))

/-- The sum over the last two axes of a [512, 512, 512] array, read at row r: the initial value plus the
    double sum over the two summed coordinates. -/
theorem hostReduceAdd_drop12 (h : (⟨3, ![512, 512, 512]⟩ : Shape).ReducesTo [1, 2] ⟨1, ![512]⟩)
    (x : (⟨3, ![512, 512, 512]⟩ : Shape).Idx → EReal) (init : EReal) (r : Fin 512) :
    Ideal.hostReduceAdd h x init (ix1 r) = init + ∑ p : Fin 512, ∑ n : Fin 512, x (ix3 r p n) := by
  unfold Ideal.hostReduceAdd
  congr 1
  rw [Finset.sum_filter, sum_idx3]
  rw [Finset.sum_eq_single r]
  · refine Finset.sum_congr rfl fun p _ => Finset.sum_congr rfl fun n _ => ?_
    exact if_pos ((drop12_eq_iff h (ix3 r p n) r).2 rfl)
  · intro a _ ha
    refine Finset.sum_eq_zero fun p _ => Finset.sum_eq_zero fun n _ => ?_
    exact if_neg fun e => ha ((drop12_eq_iff h (ix3 a p n) r).1 e)
  · intro hn
    exact absurd (Finset.mem_univ r) hn

end Cert.Dtsh

end
-- ==== Proof.RefCount.lean ====
/-
  Counting with 32-bit words: the wrap-around sum of 512 words, each the widening of one bit, read as a signed integer,
  is the number of bits set, since that number is at most 512.
-/
import Idealize.ShloMosaic.PureOps.Ideal
import Idealize.ShloMosaic.PureOps.Reduce
import Idealize.ShloMosaic.Lib.ValueIdx
import proofs.«181431_g38843684225545_feedfinal_248_1_alg».proof.Proof.RefSums

noncomputable section

open scoped BigOperators

namespace Cert.Dtsh

open Idealize.ShloMosaic Idealize.ShloMosaic.ValueIdx

/-- A fold of 32-bit additions from zero denotes the sum of the words' numbers modulo 2^32. -/
theorem toNat_fold_addi {ι : Type*} (S : Finset ι) (f : ι → BitVec 32) :
    (S.fold IntOp.addi 0#32 f).toNat = (∑ i ∈ S, (f i).toNat) % 2 ^ 32 := by
  induction S using Finset.cons_induction with
  | empty => simp
  | cons a S ha ih =>
    rw [Finset.fold_cons, Finset.sum_cons]
    show ((f a) + (S.fold IntOp.addi 0#32 f)).toNat = _
    rw [BitVec.toNat_add, ih, Nat.add_mod_mod]

/-- Widening one bit to 32 bits keeps its number. -/
theorem bit_setWidth_toNat (b : BitVec 1) : (b.setWidth 32).toNat = b.toNat :=
  BitVec.toNat_setWidth_of_le (by decide)

/-- One bit is at most one. -/
theorem bit_toNat_le (b : BitVec 1) : b.toNat ≤ 1 := by
  have := b.isLt
  omega

/-- The inclusion of the reals in the extended reals commutes with finite sums. -/
theorem ereal_coe_sum {ι : Type*} (S : Finset ι) (f : ι → ℝ) :
    ((∑ i ∈ S, f i : ℝ) : EReal) = ∑ i ∈ S, (f i : EReal) := by
  induction S using Finset.cons_induction with
  | empty => simp
  | cons a S ha ih => rw [Finset.sum_cons, Finset.sum_cons, EReal.coe_add, ih]

/-- The sum of 512 bits is at most 512. -/
theorem sum_bits_le (b : Fin 512 → BitVec 1) : ∑ r : Fin 512, (b r).toNat ≤ 512 := by
  calc ∑ r : Fin 512, (b r).toNat ≤ ∑ _r : Fin 512, 1 := Finset.sum_le_sum fun r _ => bit_toNat_le _
    _ = 512 := by simp

/-- The 32-bit reduction by addition, from zero, of the widened bits of a [512] array, read as a signed integer and
    then as an extended real: the sum of the bits as extended reals. -/
theorem count_word (h : (⟨1, ![512]⟩ : Shape).ReducesTo [0] ⟨0, ![]⟩) (hu : 0 < (⟨0, ![]⟩ : Shape).numel)
    (b : (⟨1, ![512]⟩ : Shape).Idx → BitVec 1) (init : (⟨0, ![]⟩ : Shape).Idx → BitVec 32)
    (hinit : ∀ i, init i = 0#32) (j : (⟨0, ![]⟩ : Shape).Idx) :
    ((((Host.reduce IntOp.addi (fun i => (b i).setWidth 32) init h hu j).toInt : ℤ) : ℝ) : EReal)
      = ∑ r : Fin 512, (((b (ix1 r)).toNat : ℝ) : EReal) := by
  rw [Host.reduce_eq_fold, hinit, Finset.filter_true_of_mem (fun i _ => funext fun a => a.elim0)]
  have hn : (Finset.univ.fold IntOp.addi 0#32 fun i => (b i).setWidth 32).toNat
      = ∑ r : Fin 512, (b (ix1 r)).toNat := by
    rw [toNat_fold_addi, sum_idx1]
    simp only [bit_setWidth_toNat]
    apply Nat.mod_eq_of_lt
    have := sum_bits_le fun r => b (ix1 r)
    have h32 : (2 : ℕ) ^ 32 = 4294967296 := by norm_num
    omega
  have hle := sum_bits_le fun r => b (ix1 r)
  have hi : (Finset.univ.fold IntOp.addi 0#32 fun i => (b i).setWidth 32).toInt
      = ((∑ r : Fin 512, (b (ix1 r)).toNat : ℕ) : ℤ) := by
    rw [BitVec.toInt_eq_toNat_of_lt, hn]
    rw [hn]
    have h32 : (2 : ℕ) ^ 32 = 4294967296 := by norm_num
    omega
  rw [hi, Int.cast_natCast, Nat.cast_sum, ereal_coe_sum]

end Cert.Dtsh

end
-- ==== Proof.RefStages.lean ====
/-
  The reference program read stage by stage. Each stage, read at explicit coordinates, is the quantity of the loss it
  computes: inner products, label overlaps, the two indicator arrays, their row counts, the clamped margins and their
  softplus losses, the masked row sums and means, the number of counting rows, and the mean squared distance of the
  entries from their signs. The last stage is the loss.
-/
import proofs.«181431_g38843684225545_feedfinal_248_1_alg».proof.Proof.RefReadPatched
import proofs.«181431_g38843684225545_feedfinal_248_1_alg».proof.Proof.Spec
import proofs.«181431_g38843684225545_feedfinal_248_1_alg».proof.Proof.RefSums
import proofs.«181431_g38843684225545_feedfinal_248_1_alg».proof.Proof.RefCount

noncomputable section

open scoped BigOperators

namespace Cert.Dtsh

open Cert.ReferenceIdeal Cert.ReferenceIdeal.Gen Cert.ReferenceIdeal.ReadP Idealize.ShloMosaic
  Idealize.ShloMosaic.ValueIdx

variable (x0 : SU.Idx → EReal) (x1 : SY.Idx → EReal)

/-! ## The two products and the indicators -/

/-- The first product at (r, p): the inner product of rows r and p of the codes. -/
theorem v1_at (r p : Fin 512) : val_main_v1 (F := Ideal) x0 (ix2 r p) = ip x0 r p := by
  rw [val_main_v1_apply]
  unfold ip
  refine Finset.sum_congr rfl fun k _ => ?_
  rw [val_main_v0_apply]
  have e1 : lidx_main_v1 (ix2 r p) k = ix2 r k := by
    funext a; match a with | ⟨0, _⟩ => rfl | ⟨1, _⟩ => rfl
  have e2 : idx_main_v0 (ridx_main_v1 (ix2 r p) k) = ix2 p k := by
    funext a; match a with | ⟨0, _⟩ => rfl | ⟨1, _⟩ => rfl
  rw [e1, e2]

/-- The second product at (r, p): the overlap of the labels of rows r and p. -/
theorem v3_at (r p : Fin 512) : val_main_v3 (F := Ideal) x1 (ix2 r p) = sim x1 r p := by
  rw [val_main_v3_apply]
  unfold sim
  refine Finset.sum_congr rfl fun k _ => ?_
  rw [val_main_v2_apply]
  have e1 : lidx_main_v3 (ix2 r p) k = ix2 r k := by
    funext a; match a with | ⟨0, _⟩ => rfl | ⟨1, _⟩ => rfl
  have e2 : idx_main_v2 (ridx_main_v3 (ix2 r p) k) = ix2 p k := by
    funext a; match a with | ⟨0, _⟩ => rfl | ⟨1, _⟩ => rfl
  rw [e1, e2]

/-- The indicator of a positive overlap. -/
theorem v6_at (r p : Fin 512) : val_main_v6 (F := Ideal) x1 (ix2 r p) = pos x1 r p := by
  rw [val_main_v6_apply, val_main_v5_apply, v3_at, val_main_v4_apply, val_main_cst_apply]
  rfl

/-- Its complement. -/
theorem v8_at (r p : Fin 512) : val_main_v8 (F := Ideal) x1 (ix2 r p) = neg x1 r p := by
  rw [val_main_v8_apply, val_main_v7_apply, val_main_cst_0_apply, v6_at]
  rfl

/-! ## The row counts and the bit of a counting row -/

/-- The number of rows overlapping with row r. -/
theorem v9_at (r : Fin 512) : val_main_v9 (F := Ideal) x1 (ix1 r) = npos x1 r := by
  rw [val_main_v9_apply, val_main_cst_1_apply, Ideal.ofBits_def, Ideal.ofBits_zero_f32, zero_add]
  unfold npos
  refine Finset.sum_congr rfl fun k _ => ?_
  have e : idx_main_v9 (ix1 r) k = ix2 r k := by
    funext a; match a with | ⟨0, _⟩ => rfl | ⟨1, _⟩ => rfl
  rw [e, v6_at]

/-- The number of rows not overlapping with row r. -/
theorem v10_at (r : Fin 512) : val_main_v10 (F := Ideal) x1 (ix1 r) = nneg x1 r := by
  rw [val_main_v10_apply, val_main_cst_2_apply, Ideal.ofBits_def, Ideal.ofBits_zero_f32, zero_add]
  unfold nneg
  refine Finset.sum_congr rfl fun k _ => ?_
  have e : idx_main_v10 (ix1 r) k = ix2 r k := by
    funext a; match a with | ⟨0, _⟩ => rfl | ⟨1, _⟩ => rfl
  rw [e, v8_at]

/-- Row r counts when both numbers are positive. -/
theorem v15_at (r : Fin 512) : val_main_v15 (F := Ideal) x1 (ix1 r) = validBit x1 r := by
  rw [val_main_v15_apply, val_main_v12_apply, val_main_v14_apply, v9_at, v10_at, val_main_v11_apply,
    val_main_v13_apply, val_main_cst_3_apply, val_main_cst_4_apply]
  rfl

/-! ## The margins -/

/-- The clamped margin of the triple (r, p, n). -/
theorem v23_at (r p n : Fin 512) : val_main_v23 (F := Ideal) x0 (ix3 r p n) = clipd x0 r p n := by
  rw [val_main_v23_apply, val_main_call0_v4_apply, val_main_call0_v3_apply, val_main_cst_7_apply,
    val_main_call0_v2_apply, val_main_call0_v1_apply, val_main_call0_v0_apply, val_main_cst_6_apply,
    val_main_v22_apply, val_main_v21_apply, val_main_cst_5_apply, val_main_v20_apply,
    val_main_v18_apply, val_main_v16_apply, val_main_v19_apply, val_main_v17_apply]
  have e1 : idx_main_v16 (idx_main_v18 (ix3 r p n)) = ix2 r p := by
    funext a; match a with | ⟨0, _⟩ => rfl | ⟨1, _⟩ => rfl
  have e2 : idx_main_v17 (idx_main_v19 (ix3 r p n)) = ix2 r n := by
    funext a; match a with | ⟨0, _⟩ => rfl | ⟨1, _⟩ => rfl
  rw [e1, e2, v1_at, v1_at]
  rfl

/-- Its softplus loss. -/
theorem v26_at (r p n : Fin 512) : val_main_v26 (F := Ideal) x0 (ix3 r p n) = marg x0 r p n := by
  rw [val_main_v26_apply, val_main_v25_apply, val_main_v24_apply, v23_at]
  rfl

/-- The mask of (positive, negative) pairs of row r. -/
theorem v31_at (r p n : Fin 512) : val_main_v31 (F := Ideal) x1 (ix3 r p n) = pos x1 r p * neg x1 r n := by
  rw [val_main_v31_apply, val_main_v29_apply, val_main_v27_apply, val_main_v30_apply, val_main_v28_apply]
  have e1 : idx_main_v27 (idx_main_v29 (ix3 r p n)) = ix2 r p := by
    funext a; match a with | ⟨0, _⟩ => rfl | ⟨1, _⟩ => rfl
  have e2 : idx_main_v28 (idx_main_v30 (ix3 r p n)) = ix2 r n := by
    funext a; match a with | ⟨0, _⟩ => rfl | ⟨1, _⟩ => rfl
  rw [e1, e2, v6_at, v8_at]
  rfl

/-- The masked loss of the triple. -/
theorem v35_at (r p n : Fin 512) :
    val_main_v35 (F := Ideal) x0 x1 (ix3 r p n) = marg x0 r p n * (pos x1 r p * neg x1 r n) := by
  rw [val_main_v35_apply, v26_at, v31_at]
  rfl

/-! ## The rows -/

/-- The sum over the pairs of row r. -/
theorem v36_at (r : Fin 512) : val_main_v36 (F := Ideal) x0 x1 (ix1 r) = num x0 x1 r := by
  unfold val_main_v36
  rw [hostReduceAdd_apply, hostReduceAdd_drop12, val_main_cst_9_apply, Ideal.ofBits_def, Ideal.ofBits_zero_f32,
    zero_add]
  unfold num
  refine Finset.sum_congr rfl fun p _ => Finset.sum_congr rfl fun n _ => ?_
  rw [v35_at]

/-- The mean over the pairs of row r. -/
theorem v37_at (r : Fin 512) : val_main_v37 (F := Ideal) x0 x1 (ix1 r) = rowLoss x0 x1 r := by
  rw [val_main_v37_apply, v36_at, val_main_v34_apply, val_main_v32_apply, v9_at, v10_at, val_main_v33_apply,
    val_main_cst_8_apply]
  rfl

/-- What row r adds to the total. -/
theorem v42_at (r : Fin 512) : val_main_v42 (F := Ideal) x0 x1 (ix1 r) = contrib x0 x1 r := by
  rw [val_main_v42_apply, v15_at, v37_at, val_main_call1_v1_apply, val_main_call1_v0_apply, val_main_cst_11_apply]
  rfl

/-- The total over the rows. -/
theorem v43_at (i : S_.Idx) : val_main_v43 (F := Ideal) x0 x1 i = lossSum x0 x1 := by
  rw [val_main_v43_apply, val_main_cst_12_apply, Ideal.ofBits_def, Ideal.ofBits_zero_f32, zero_add, sum_idx1]
  unfold lossSum
  refine Finset.sum_congr rfl fun r _ => ?_
  rw [v42_at]

/-- The number of counting rows. -/
theorem v40_at (i : S_.Idx) : val_main_v40 (F := Ideal) x1 i = count x1 := by
  rw [val_main_v40_apply]
  unfold val_main_v39
  refine (count_word reducesTo_S512_S_d0 h_S_ (val_main_v15 (F := Ideal) x1) (val_main_c (F := Ideal))
    (fun _ => rfl) i).trans ?_
  unfold count
  refine Finset.sum_congr rfl fun r _ => ?_
  rw [v15_at]
  rfl

/-- The first term of the loss: the mean over the counting rows. -/
theorem v46_at (i : S_.Idx) : val_main_v46 (F := Ideal) x0 x1 i = loss1 x0 x1 := by
  rw [val_main_v46_apply, val_main_v41_apply, val_main_v45_apply, v43_at, val_main_v44_apply, v40_at,
    val_main_cst_10_apply, val_main_cst_13_apply, val_main_cst_14_apply]
  rfl

/-! ## The second term and the loss -/

/-- The summed squared distances of the entries from their signs. -/
theorem v50_at (i : S_.Idx) : val_main_v50 (F := Ideal) x0 i = quant x0 := by
  rw [val_main_v50_apply, val_main_cst_15_apply, Ideal.ofBits_def, Ideal.ofBits_zero_f32, zero_add, sum_idx2]
  unfold quant
  refine Finset.sum_congr rfl fun r _ => Finset.sum_congr rfl fun k _ => ?_
  rw [val_main_v49_apply, val_main_v48_apply, val_main_v47_apply]
  rfl

/-- The reference program's result is the loss. -/
theorem ref_loss : val_main_v53 (F := Ideal) x0 x1 = fun _ => loss x0 x1 := by
  funext i
  rw [val_main_v53_apply, v46_at, val_main_v52_apply, val_main_v51_apply, v50_at, val_main_cst_17_apply,
    val_main_cst_16_apply]
  rfl

end Cert.Dtsh

end
-- ==== Proof.SpecLaws.lean ====
/-
  The laws that join the kernel's arrangement of the loss to the reference's.

  The kernel sums a row's margins first over the positives and then over the negatives,
  `Σ_n (Σ_p marg r p n · pos r p) · neg r n`, where the reference sums `marg r p n · (pos r p · neg r n)` over all
  pairs. The two agree on the extended reals because `neg r n` is `0` or `1`: multiplying a sum by `0` or by `1`
  distributes whatever the summands are. The kernel also pads the label axis from 100 to 128 with zeros, which adds
  terms `0 · 0` to each overlap; and it scales the quantization sum by `1` before dividing where the reference
  scales after.
-/
import proofs.«181431_g38843684225545_feedfinal_248_1_alg».proof.Proof.Spec

noncomputable section

open scoped BigOperators

namespace Cert.Dtsh

open Idealize.ShloMosaic Idealize.ShloMosaic.ValueIdx

theorem pos_cases (y : SY.Idx → EReal) (r p : Fin 512) : pos y r p = 0 ∨ pos y r p = 1 := ind_cases _

theorem neg_cases (y : SY.Idx → EReal) (r n : Fin 512) : neg y r n = 0 ∨ neg y r n = 1 := by
  unfold neg
  rw [oneLit_eq]
  rcases pos_cases y r n with h | h
  · right; rw [h, sub_zero]
  · left; rw [h]
    show ((1 : ℝ) : EReal) - ((1 : ℝ) : EReal) = 0
    rw [← EReal.coe_sub, sub_self, EReal.coe_zero]

/-- Summing over the positives first and weighting the result by the negative's indicator is the sum over pairs. -/
theorem num_by_negatives (u : SU.Idx → EReal) (y : SY.Idx → EReal) (r : Fin 512) :
    ∑ n : Fin 512, (∑ p : Fin 512, marg u r p n * pos y r p) * neg y r n = num u y r := by
  unfold num
  rw [Finset.sum_comm]
  refine Finset.sum_congr rfl fun n _ => ?_
  rcases neg_cases y r n with h | h
  · rw [h, mul_zero]
    exact (Finset.sum_eq_zero fun p _ => by rw [mul_zero, mul_zero]).symm
  · rw [h, mul_one]
    exact Finset.sum_congr rfl fun p _ => by rw [mul_one]

/-- A sum over 128 positions whose last 28 terms vanish is the sum over the first 100. -/
theorem sum_padded (f : Fin 128 → EReal) (g : Fin 100 → EReal)
    (h1 : ∀ c : Fin 100, f ⟨c.val, by omega⟩ = g c) (h2 : ∀ c : Fin 128, 100 ≤ c.val → f c = 0) :
    ∑ c : Fin 128, f c = ∑ c : Fin 100, g c := by
  have e := Fin.sum_univ_add (a := 100) (b := 28) (f := f)
  rw [show (∑ c : Fin 128, f c) = ∑ c : Fin (100 + 28), f c from rfl, e]
  have z : ∑ c : Fin 28, f (Fin.natAdd 100 c) = 0 :=
    Finset.sum_eq_zero fun c _ => h2 _ (by show 100 ≤ 100 + c.val; omega)
  rw [z, add_zero]
  exact Finset.sum_congr rfl fun c _ => h1 c

/-- Scaling by one before or after the division by the size is the same. -/
theorem scale_quant (q : EReal) : Ideal.div (oneLit * q) sizeLit = oneLit * Ideal.div q sizeLit := by
  rw [oneLit_eq, one_mul, one_mul]

end Cert.Dtsh

end
-- ==== Proof.LibCube.lean ====
/-
  Rank-three blocks built from a matrix and reduced back, read at an index — general in the extents.

  A matrix `[a, b]` viewed with a unit axis in the middle, `[a, 1, b]`; such a block broadcast along the middle axis to
  `[a, c, b]`; the source index a sum along the middle axis of an `[a, b, c]` block inserts, and the one a sum along the
  first axis of a matrix inserts; sums over the index sets of `[1, b]` and `[1, b, c]` blocks as sums over coordinates;
  a sum over `m · n` consecutive positions grouped as `m` runs of `n`; and, at the exact instance, a lane sum of a matrix
  and a sum along the middle axis of a rank-three block as sums over the summed coordinate.
-/
import Idealize.ShloMosaic.Lib.ValueLayout
import Idealize.ShloMosaic.PureOps.Reduce
import Idealize.ShloMosaic.PureOps.Ideal.Laws

open scoped BigOperators

namespace Cert.LibCube

open Idealize.ShloMosaic Idealize.ShloMosaic.ValueIdx

variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- The source index a sum along the middle axis of an `[a, b, c]` block inserts over `(r, n)` at coordinate `p`
    is `(r, p, n)`. -/
theorem lift_mid {a b c : ℕ} (h : (⟨3, ![a, b, c]⟩ : Shape).Reduces [1] ⟨2, ![a, c]⟩) (r : Fin a) (n : Fin c) (p : Fin b) :
    h.lift (ix2 r n) p = ix3 r p n := by
  funext ax
  apply Fin.ext
  match ax with
  | ⟨0, _⟩ => rfl
  | ⟨1, _⟩ => rfl
  | ⟨2, _⟩ => rfl

/-- The source index a sum along the first axis of an `[a, b]` matrix inserts over `l` at coordinate `g` is `(g, l)`. -/
theorem lift_first {a b : ℕ} (h : (⟨2, ![a, b]⟩ : Shape).Reduces [0] ⟨1, ![b]⟩) (l : Fin b) (g : Fin a) :
    h.lift (ix1 l) g = ix2 g l := by
  funext ax
  apply Fin.ext
  match ax with
  | ⟨0, _⟩ => rfl
  | ⟨1, _⟩ => rfl

/-- A sum over the index set of a `[1, b]` block is the sum over its second coordinate. -/
theorem sum_idx_1b {M : Type*} [AddCommMonoid M] {b : ℕ} (f : (⟨2, ![1, b]⟩ : Shape).Idx → M) :
    ∑ i, f i = ∑ r : Fin b, f (ix2 (0 : Fin 1) r) := by
  rw [sum_idx2, Fin.sum_univ_one]

/-- Every index of a `[1, b, c]` block is `(0, r, k)`; its index set is the product of the two long ranges. -/
def idxEquiv_1bc {b c : ℕ} : (⟨3, ![1, b, c]⟩ : Shape).Idx ≃ Fin b × Fin c where
  toFun i := (i 1, i 2)
  invFun p := ix3 (0 : Fin 1) p.1 p.2
  left_inv i := by
    funext ax
    match ax with
    | ⟨0, _⟩ => exact Fin.ext (by have h0 : (i 0).val < 1 := (i 0).isLt; show 0 = (i 0).val; omega)
    | ⟨1, _⟩ => rfl
    | ⟨2, _⟩ => rfl
  right_inv _ := rfl

/-- So a sum over it is the double sum over the two long coordinates. -/
theorem sum_idx_1bc {M : Type*} [AddCommMonoid M] {b c : ℕ} (f : (⟨3, ![1, b, c]⟩ : Shape).Idx → M) :
    ∑ i, f i = ∑ r : Fin b, ∑ k : Fin c, f (ix3 (0 : Fin 1) r k) := by
  rw [← Equiv.sum_comp (idxEquiv_1bc (b := b) (c := c)).symm f, Fintype.sum_prod_type]
  rfl

/-- A sum over `m · n` positions is the sum over `m` runs of the sums over each run's `n` positions. -/
theorem sum_runs {M : Type*} [AddCommMonoid M] {m n : ℕ} (f : Fin (m * n) → M) :
    ∑ g : Fin m, ∑ r : Fin n, f (finProdFinEquiv (g, r)) = ∑ R, f R := by
  rw [← Fintype.sum_prod_type (f := fun p : Fin m × Fin n => f (finProdFinEquiv p))]
  exact Equiv.sum_comp finProdFinEquiv f

/-- A lane sum of an `[a, b]` matrix (its accumulator the neutral zero) reads, at row `r`, the sum over `k < b` of the
    entries `(r, k)`. -/
theorem laneSum_ix1 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  show (∑ k : Fin b, src (h.lift (ix1 r) k)) = _
  refine Finset.sum_congr rfl fun k _ => congrArg src ?_
  funext ax
  apply Fin.ext
  match ax with
  | ⟨0, _⟩ => rfl
  | ⟨1, _⟩ => rfl

/-- A sum along the middle axis of an `[a, b, c]` block reads, at `(r, n)`, the sum over `p < b` of the entries
    `(r, p, n)`. -/
theorem midSum_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (n : Fin c) :
    multiReduction .add [1] ⟨2, ![a, c]⟩ src acc h hφ hacc (ix2 r n) = ∑ p : Fin b, src (ix3 r p n) := by
  refine (Ideal.multiReduction_add_single src acc h hφ hacc (ix2 r n)).trans ?_
  show (∑ p : Fin b, src (h.lift (ix2 r n) p)) = _
  exact Finset.sum_congr rfl fun p _ => congrArg src (lift_mid h r n p)

end Cert.LibCube
-- ==== Proof.LibBlocks.lean ====
/-
  Blocks of rank two and three read at an index: the unit axes a vector kernel adds and drops around its stores,
  the two broadcasts that fill a rank-three block from a matrix of rows or from a matrix with a trailing unit axis, the
  host's placement of a rank-three array into a rank-four one with a unit axis in second place, a load of one column
  of a matrix, and where an index of a rank-three block lies relative to a slab cut along the last axis. Each is the
  general "same row-major position" or "trailing coordinates" reading of the operation, with both indices written out
  by coordinates; the extents are free.
-/
import Idealize.ShloMosaic.Lib.ValueLayout

namespace Cert.LibBlocks

open Idealize.ShloMosaic Idealize.ShloMosaic.ValueIdx

variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array cast to `[a, b]` reads, at `(p, q)`, the operand at `(p, 0, q)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A `[1, b, c]` array broadcast to `[a, b, c]` reads, at `(p, q, k)`, the operand's one matrix at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, b, c]` array placed on axes 0, 2, 3 of an `[a, 1, b, c]` array reads, at `(p, u, q, k)`, the operand at
    `(p, q, k)`. -/
theorem broadcastInDim_abc_a1bc_apply {a b c : ℕ} (x : (⟨3, ![a, b, c]⟩ : Shape).Idx → α)
    (h : (⟨3, ![a, b, c]⟩ : Shape).BroadcastsInDim ⟨4, ![a, 1, b, c]⟩ ![0, 2, 3])
    (p : Fin a) (u : Fin 1) (q : Fin b) (k : Fin c) :
    broadcastInDim ⟨4, ![a, 1, b, c]⟩ ![0, 2, 3] h x (ix4 p u q k) = x (ix3 p q k) := by
  refine broadcastInDim_apply ![0, 2, 3] h x (ix4 p u q k) (ix3 p q k) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show k.val = if c = 1 then 0 else k.val
    split
    · have := k.isLt; omega
    · rfl

section Loads

variable {Val : EltTy → Type} {e : EltTy}

/-- A load of column `j` of an `[a, b]` block, as an `[a, 1]` column, reads at `(p, u)` the block at `(p, j)`. -/
theorem ld_col_apply {a b : ℕ} (X : (⟨2, ![a, b]⟩ : Shape).Idx → Val e) (j : ℕ) (hj : j < b)
    (inb : ∀ ax, (![0, j] : Fin 2 → ℕ) ax + (![a, 1] : Fin 2 → ℕ) ax ≤ (⟨2, ![a, b]⟩ : Shape).size ax)
    (p : Fin a) (u : Fin 1) :
    View.ld X (Rect.unit ![0, j] ![a, 1] inb) (ix2 p u) = X (ix2 p ⟨j, hj⟩) := by
  show X _ = X _
  congr 1
  funext ax
  apply Fin.ext
  match ax with
  | ⟨0, _⟩ => show 0 + 1 * p.val = p.val; omega
  | ⟨1, _⟩ => show j + 1 * u.val = j; omega

end Loads

/-- The slab of an `[a, b, c]` block that keeps the first two axes whole and takes `n` consecutive coordinates from
    `o` on the last: its own index `(p, q, k')` sits at `(p, q, o + k')` of the block. -/
theorem slab_emb {a b c n o : ℕ}
    (inb : ∀ ax, (![0, 0, o] : Fin 3 → ℕ) ax + (![a, b, n] : Fin 3 → ℕ) ax ≤ (⟨3, ![a, b, c]⟩ : Shape).size ax)
    (p : Fin a) (q : Fin b) (k' : Fin n) (hk : o + k'.val < c) :
    (Rect.unit (s := ⟨3, ![a, b, c]⟩) ![0, 0, o] ![a, b, n] inb).emb (ix3 p q k') = ix3 p q ⟨o + k'.val, hk⟩ := by
  funext ax
  apply Fin.ext
  match ax with
  | ⟨0, _⟩ => show 0 + 1 * p.val = p.val; omega
  | ⟨1, _⟩ => show 0 + 1 * q.val = q.val; omega
  | ⟨2, _⟩ => show o + 1 * k'.val = o + k'.val; omega

/-- An index whose last coordinate is before the slab's first or at or past its end is not in the slab. -/
theorem not_mem_slab {a b c n o : ℕ}
    (inb : ∀ ax, (![0, 0, o] : Fin 3 → ℕ) ax + (![a, b, n] : Fin 3 → ℕ) ax ≤ (⟨3, ![a, b, c]⟩ : Shape).size ax)
    (p : Fin a) (q : Fin b) (k : Fin c) (hk : k.val < o ∨ o + n ≤ k.val) :
    ix3 p q k ∉ (Rect.unit (s := ⟨3, ![a, b, c]⟩) ![0, 0, o] ![a, b, n] inb).set := by
  rw [Rect.mem_set_unit]
  intro hm
  have h2 := hm (⟨2, (by show 2 < 3; omega)⟩ : Fin (⟨3, ![a, b, c]⟩ : Shape).rank)
  change o ≤ k.val ∧ k.val < o + n at h2
  omega

end Cert.LibBlocks
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.LibRowSums.lean ====
/-
  Row sums of a matrix and the layout operations around them, read at an index — general in the extents.

  A sum along axis 1 of an `[a, b]` matrix is, at row `r`, the sum over `k < b` of the entries `(r, k)`. A kernel takes
  it as a lane reduction (its accumulator the neutral zero, which the reading drops) and casts the `[a]` result to an
  `[a, 1]` column; a host program takes it as a reduce from an initial value and lays the result out as a column by a
  broadcast along axis 0. Beside them, the host's broadcasts of a vector to a one-row matrix and of a column across the
  columns, each read at an index with both indices written out by coordinates.
-/
import Idealize.ShloMosaic.Lib.ValueLayout
import Idealize.ShloMosaic.Lib.IdealHost
import Idealize.ShloMosaic.PureOps.Ideal.Laws
import proofs.«181431_g38843684225545_feedfinal_248_1_alg».proof.Proof.LibColumns

open scoped BigOperators

namespace Cert.LibRowSums

open Idealize.ShloMosaic Idealize.ShloMosaic.ValueIdx

section Layout
variable {α : Type}

/-- An `[a]` vector broadcast along axis 0 to an `[a, 1]` column reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A `[b]` vector broadcast along axis 1 to a `[1, b]` row reads, at `(u, k)`, the vector at `k`. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- An `[a, 1]` column broadcast across `b` columns reads, at `(p, c)`, the column's entry at `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    exact (if_pos rfl).symm

end Layout

/-- The source index a sum along axis 1 inserts over row `r` at coordinate `k` is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A KERNEL'S ROW SUM kept as a column: the lane reduction along axis 1 of an `[a, b]` matrix, cast from `[a]` to
    `[a, 1]`, reads at `(r, u)` the sum over `k < b` of the entries `(r, k)`. -/
theorem laneSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u)
      = ∑ k : Fin b, src (ix2 r k) := by
  rw [Cert.LibColumns.shapeCast_a_a1_apply]
  refine (Ideal.multiReduction_add_single src acc h hφ hacc (ix1 r)).trans ?_
  show (∑ k : Fin b, src (h.lift (ix1 r) k)) = _
  exact Finset.sum_congr rfl fun k _ => congrArg src (lift_row h r k)

/-- A HOST PROGRAM'S ROW SUM laid out as a column: the reduce with `add` along axis 1 from an initial value, broadcast
    along axis 0 to `[a, 1]`, reads at `(r, v)` the initial value plus the sum over `k < b` of the entries `(r, k)`. -/
theorem hostRowSum_apply {φ : FTy} {a b : ℕ} {u : Shape} (src : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩)
    (hb : (⟨1, ![a]⟩ : Shape).BroadcastsInDim ⟨2, ![a, 1]⟩ ![0]) (r : Fin a) (v : Fin 1) :
    broadcastInDim ⟨2, ![a, 1]⟩ ![0] hb (Host.reduceAdd (F := Ideal) src init h' hu) (ix2 r v)
      = init (Shape.Idx.first hu) + ∑ k : Fin b, src (ix2 r k) := by
  rw [broadcastInDim_a_a1_apply, hostReduceAdd_apply, Ideal.hostReduceAdd_single h' h]
  show _ + (∑ k : Fin b, src (h.lift (ix1 r) k)) = _
  exact congrArg _ (Finset.sum_congr rfl fun k _ => congrArg src (lift_row h r k))

end Cert.LibRowSums
-- ==== Proof.KernelCounts.lean ====
/-
  The kernel body's values at the exact instance, read at an index: the two row-block products, the overlap
  indicator and its complement, and their row counts.

  With `v2` the point's eight rows of the codes `u` (row `r` of the block is row `R r` of `u`), `v5` the same rows of
  the padded labels `x1` (`x1` is `y` in its first 100 columns and zero beyond), the body's products are
  `Σ_k v2 r k · u p k = ip u (R r) p` and `Σ_{c < 128} v5 r c · x1 p c = sim y (R r) p`: the 28 padded columns add
  `0 · 0`.
-/
import proofs.«181431_g38843684225545_feedfinal_248_1_alg».proof.Proof.Gen.KernelIdeal.Skeleton
import proofs.«181431_g38843684225545_feedfinal_248_1_alg».proof.Proof.SpecLaws
import proofs.«181431_g38843684225545_feedfinal_248_1_alg».proof.Proof.LibCube
import proofs.«181431_g38843684225545_feedfinal_248_1_alg».proof.Proof.LibBlocks
import proofs.«181431_g38843684225545_feedfinal_248_1_alg».proof.Proof.LibRowSums
import Idealize.ShloMosaic.PureOps.Ideal.Laws
import Idealize.ShloMosaic.Lib.ValueLayout
import Idealize.ShloMosaic.Lib.IdealHost

noncomputable section

open scoped BigOperators

namespace Cert.Dtsh.K

open Cert.KernelIdeal Cert.KernelIdeal.Gen Cert.Dtsh Idealize.ShloMosaic Idealize.ShloMosaic.ValueIdx

/-- The operand indices of the two products on their non-contracted axes: the result's row, and the result's column. -/
theorem dot_S8x64_S512x64_S8x512_1_1_0_0_n_n_lhs0 (i : S8x512.Idx) (q : dot_S8x64_S512x64_S8x512_1_1_0_0_n_n.contr.Idx) : (dot_S8x64_S512x64_S8x512_1_1_0_0_n_n.lhsIdx i q 0).val = (i 0).val := by
  unfold DotDims.lhsIdx
  rw [dif_neg (show ¬(0 : Fin S8x64.rank) ∈ dot_S8x64_S512x64_S8x512_1_1_0_0_n_n.lhsBatch by decide), dif_pos (show (0 : Fin S8x64.rank) ∈ dot_S8x64_S512x64_S8x512_1_1_0_0_n_n.lhsNonContracting by decide)]
  rfl
theorem dot_S8x64_S512x64_S8x512_1_1_0_0_n_n_rhs0 (i : S8x512.Idx) (q : dot_S8x64_S512x64_S8x512_1_1_0_0_n_n.contr.Idx) : (dot_S8x64_S512x64_S8x512_1_1_0_0_n_n.rhsIdx i q 0).val = (i 1).val := by
  unfold DotDims.rhsIdx
  rw [dif_neg (show ¬(0 : Fin S512x64.rank) ∈ dot_S8x64_S512x64_S8x512_1_1_0_0_n_n.rhsBatch by decide), dif_pos (show (0 : Fin S512x64.rank) ∈ dot_S8x64_S512x64_S8x512_1_1_0_0_n_n.rhsNonContracting by decide)]
  rfl
theorem dot_S8x128_S512x128_S8x512_1_1_0_0_n_n_lhs0 (i : S8x512.Idx) (q : dot_S8x128_S512x128_S8x512_1_1_0_0_n_n.contr.Idx) : (dot_S8x128_S512x128_S8x512_1_1_0_0_n_n.lhsIdx i q 0).val = (i 0).val := by
  unfold DotDims.lhsIdx
  rw [dif_neg (show ¬(0 : Fin S8x128.rank) ∈ dot_S8x128_S512x128_S8x512_1_1_0_0_n_n.lhsBatch by decide), dif_pos (show (0 : Fin S8x128.rank) ∈ dot_S8x128_S512x128_S8x512_1_1_0_0_n_n.lhsNonContracting by decide)]
  rfl
theorem dot_S8x128_S512x128_S8x512_1_1_0_0_n_n_rhs0 (i : S8x512.Idx) (q : dot_S8x128_S512x128_S8x512_1_1_0_0_n_n.contr.Idx) : (dot_S8x128_S512x128_S8x512_1_1_0_0_n_n.rhsIdx i q 0).val = (i 1).val := by
  unfold DotDims.rhsIdx
  rw [dif_neg (show ¬(0 : Fin S512x128.rank) ∈ dot_S8x128_S512x128_S8x512_1_1_0_0_n_n.rhsBatch by decide), dif_pos (show (0 : Fin S512x128.rank) ∈ dot_S8x128_S512x128_S8x512_1_1_0_0_n_n.rhsNonContracting by decide)]
  rfl

/-- The product of a block of eight rows with all rows of the codes, at `(r, p)`: the sum over the 64 code bits. -/
theorem matmul_codes_apply (lhs : FVec Ideal S8x64 .f32) (rhs : FVec Ideal S512x64 .f32) (r : Fin 8) (p : Fin 512) :
    matmul dot_S8x64_S512x64_S8x512_1_1_0_0_n_n (some .fp32) lhs rhs (constant S8x512 .f32 0x00000000#32) (ix2 r p)
      = ∑ k : Fin 64, lhs (ix2 r k) * rhs (ix2 p k) := by
  simp only [matmul]
  rw [Ideal.matmul_constant_zero_apply, ← Equiv.sum_comp (contrEquiv1 dot_S8x64_S512x64_S8x512_1_1_0_0_n_n 64 rfl rfl).symm]
  refine Finset.sum_congr rfl fun k _ => ?_
  have hk := contrEquiv1_symm_val dot_S8x64_S512x64_S8x512_1_1_0_0_n_n 64 rfl rfl k
  have el : dot_S8x64_S512x64_S8x512_1_1_0_0_n_n.lhsIdx (ix2 r p) ((contrEquiv1 dot_S8x64_S512x64_S8x512_1_1_0_0_n_n 64 rfl rfl).symm k) = ix2 r k :=
    funext fun a => Fin.ext (by
      match a with
      | ⟨0, _⟩ => exact dot_S8x64_S512x64_S8x512_1_1_0_0_n_n_lhs0 _ _
      | ⟨1, _⟩ => exact (dot_S8x64_S512x64_S8x512_1_1_0_0_n_n.lhsIdx_val_of_single rfl _ _).trans hk)
  have er : dot_S8x64_S512x64_S8x512_1_1_0_0_n_n.rhsIdx (ix2 r p) ((contrEquiv1 dot_S8x64_S512x64_S8x512_1_1_0_0_n_n 64 rfl rfl).symm k) = ix2 p k :=
    funext fun a => Fin.ext (by
      match a with
      | ⟨0, _⟩ => exact dot_S8x64_S512x64_S8x512_1_1_0_0_n_n_rhs0 _ _
      | ⟨1, _⟩ => exact (dot_S8x64_S512x64_S8x512_1_1_0_0_n_n.rhsIdx_val_of_single rfl _ _).trans hk)
  rw [el, er]

/-- The product of a block of eight label rows with all padded label rows, at `(r, p)`: the sum over 128 columns. -/
theorem matmul_labels_apply (lhs : FVec Ideal S8x128 .f32) (rhs : FVec Ideal S512x128 .f32) (r : Fin 8) (p : Fin 512) :
    matmul dot_S8x128_S512x128_S8x512_1_1_0_0_n_n (some .fp32) lhs rhs (constant S8x512 .f32 0x00000000#32) (ix2 r p)
      = ∑ c : Fin 128, lhs (ix2 r c) * rhs (ix2 p c) := by
  simp only [matmul]
  rw [Ideal.matmul_constant_zero_apply, ← Equiv.sum_comp (contrEquiv1 dot_S8x128_S512x128_S8x512_1_1_0_0_n_n 128 rfl rfl).symm]
  refine Finset.sum_congr rfl fun k _ => ?_
  have hk := contrEquiv1_symm_val dot_S8x128_S512x128_S8x512_1_1_0_0_n_n 128 rfl rfl k
  have el : dot_S8x128_S512x128_S8x512_1_1_0_0_n_n.lhsIdx (ix2 r p) ((contrEquiv1 dot_S8x128_S512x128_S8x512_1_1_0_0_n_n 128 rfl rfl).symm k) = ix2 r k :=
    funext fun a => Fin.ext (by
      match a with
      | ⟨0, _⟩ => exact dot_S8x128_S512x128_S8x512_1_1_0_0_n_n_lhs0 _ _
      | ⟨1, _⟩ => exact (dot_S8x128_S512x128_S8x512_1_1_0_0_n_n.lhsIdx_val_of_single rfl _ _).trans hk)
  have er : dot_S8x128_S512x128_S8x512_1_1_0_0_n_n.rhsIdx (ix2 r p) ((contrEquiv1 dot_S8x128_S512x128_S8x512_1_1_0_0_n_n 128 rfl rfl).symm k) = ix2 p k :=
    funext fun a => Fin.ext (by
      match a with
      | ⟨0, _⟩ => exact dot_S8x128_S512x128_S8x512_1_1_0_0_n_n_rhs0 _ _
      | ⟨1, _⟩ => exact (dot_S8x128_S512x128_S8x512_1_1_0_0_n_n.rhsIdx_val_of_single rfl _ _).trans hk)
  rw [el, er]

/-- What the point's loads are, in terms of the inputs: block row `r` is row `R r`; the staged labels are the labels
    padded with zeros from column 100 on. -/
structure Rows (u : SU.Idx → EReal) (y : SY.Idx → EReal) (R : Fin 8 → Fin 512)
    (v2 : FVec Ideal S8x64 .f32) (v5 : FVec Ideal S8x128 .f32) (x1 : FVec Ideal S512x128 .f32) : Prop where
  codes : ∀ (r : Fin 8) (k : Fin 64), v2 (ix2 r k) = u (ix2 (R r) k)
  labels : ∀ (r : Fin 8) (c : Fin 128), v5 (ix2 r c) = x1 (ix2 (R r) c)
  padded : ∀ (p : Fin 512) (c : Fin 128), x1 (ix2 p c) = if h : c.val < 100 then y (ix2 p ⟨c.val, h⟩) else 0

section
variable {u : SU.Idx → EReal} {y : SY.Idx → EReal} {R : Fin 8 → Fin 512}
variable {v2 : FVec Ideal S8x64 .f32} {v5 : FVec Ideal S8x128 .f32} {x1 : FVec Ideal S512x128 .f32}

/-- The padded overlap is the overlap. -/
theorem Rows.sim_eq (h : Rows u y R v2 v5 x1) (r : Fin 8) (p : Fin 512) :
    ∑ c : Fin 128, v5 (ix2 r c) * x1 (ix2 p c) = sim y (R r) p := by
  unfold sim
  refine sum_padded _ _ (fun c => ?_) (fun c hc => ?_)
  · rw [h.labels, h.padded, h.padded, dif_pos c.isLt, dif_pos c.isLt]
  · rw [h.labels, h.padded, h.padded, dif_neg (by omega), dif_neg (by omega), mul_zero]

/-- The block's inner products are the inner products of its rows. -/
theorem Rows.ip_eq (h : Rows u y R v2 v5 x1) (r : Fin 8) (p : Fin 512) :
    ∑ k : Fin 64, v2 (ix2 r k) * u (ix2 p k) = ip u (R r) p := by
  unfold ip
  exact Finset.sum_congr rfl fun k _ => by rw [h.codes]

/-- The indicator of a positive overlap, as the body computes it. -/
theorem Rows.pay2_apply (h : Rows u y R v2 v5 x1) (r : Fin 8) (p : Fin 512) :
    k0_pay2 (F := Ideal) v5 x1 (ix2 r p) = pos y (R r) p := by
  unfold k0_pay2
  simp only [sitofp_apply, extui_apply, cmpf_apply, broadcast_apply, shapeCast_self]
  rw [matmul_labels_apply, h.sim_eq]
  unfold pos
  exact ind_setWidth _

/-- Its complement. -/
theorem Rows.pay3_apply (h : Rows u y R v2 v5 x1) (r : Fin 8) (p : Fin 512) :
    k0_pay3 (F := Ideal) v5 x1 (ix2 r p) = neg y (R r) p := by
  unfold k0_pay3
  simp only [subf_apply, broadcast_apply]
  rw [h.pay2_apply]
  rfl

/-- The row's count of positives. -/
theorem Rows.pay4_apply (h : Rows u y R v2 v5 x1) (r : Fin 8) :
    k0_pay4 (F := Ideal) v5 x1 (ix1 r) = npos y (R r) := by
  unfold k0_pay4
  refine (Ideal.multiReduction_add_single _ _ _ _ _ (ix1 r)).trans ?_
  show (∑ p : Fin 512, k0_pay2 (F := Ideal) v5 x1 (reduces_S8x512_S8.lift (ix1 r) p)) = _
  unfold npos
  exact Finset.sum_congr rfl fun p _ =>
    (congrArg (k0_pay2 (F := Ideal) v5 x1) (Cert.LibRowSums.lift_row reduces_S8x512_S8 r p)).trans (h.pay2_apply r p)

/-- The row's count of negatives. -/
theorem Rows.pay5_apply (h : Rows u y R v2 v5 x1) (r : Fin 8) :
    k0_pay5 (F := Ideal) v5 x1 (ix1 r) = nneg y (R r) := by
  unfold k0_pay5
  refine (Ideal.multiReduction_add_single _ _ _ _ _ (ix1 r)).trans ?_
  show (∑ p : Fin 512, k0_pay3 (F := Ideal) v5 x1 (reduces_S8x512_S8.lift (ix1 r) p)) = _
  unfold nneg
  exact Finset.sum_congr rfl fun p _ =>
    (congrArg (k0_pay3 (F := Ideal) v5 x1) (Cert.LibRowSums.lift_row reduces_S8x512_S8 r p)).trans (h.pay3_apply r p)

end

end Cert.Dtsh.K

end
-- ==== Proof.KernelLanes.lean ====
/-
  The three numbers one grid point stores, at the exact instance.

  From the row counts and the masked pair sums of its eight rows the body forms each row's mean over its pairs, keeps
  it where the row has a positive and a negative, and stores in lane 0 the sum of the kept means, in lane 1 the number of
  kept rows, in lane 2 the sum over the block's `8 · 64` entries of `(u - sign u)²`.
-/
import proofs.«181431_g38843684225545_feedfinal_248_1_alg».proof.Proof.KernelCounts
import Idealize.ShloMosaic.PureOps.Ideal.Laws
import Idealize.ShloMosaic.Lib.ValueLayout
import Idealize.ShloMosaic.Lib.IdealHost

noncomputable section

open scoped BigOperators

namespace Cert.Dtsh.K

open Cert.KernelIdeal Cert.KernelIdeal.Gen Cert.Dtsh Idealize.ShloMosaic Idealize.ShloMosaic.ValueIdx

/-- Reading the one entry of a `[1, 1]` or `[1, 1, 1]` block. -/
theorem extractAt_11 {α : Type} (x : S1x1.Idx → α) (h : ∀ a, (![0, 0] : Fin 2 → ℕ) a < S1x1.size a) :
    extractAt ![0, 0] x h = x (ix2 (0 : Fin 1) (0 : Fin 1)) := by
  unfold extractAt
  exact congrArg x (funext fun a => by match a with | ⟨0, _⟩ => rfl | ⟨1, _⟩ => rfl)
theorem extractAt_111 {α : Type} (x : S1x1x1.Idx → α) (h : ∀ a, (![0, 0, 0] : Fin 3 → ℕ) a < S1x1x1.size a) :
    extractAt ![0, 0, 0] x h = x (ix3 (0 : Fin 1) (0 : Fin 1) (0 : Fin 1)) := by
  unfold extractAt
  exact congrArg x (funext fun a => by match a with | ⟨0, _⟩ => rfl | ⟨1, _⟩ => rfl | ⟨2, _⟩ => rfl)

/-- The body's way of summing a vector of eight: viewed as one row, lane-summed, and the one entry read. -/
theorem total8 (v : FVec Ideal S8 .f32) :
    extractAt ![0, 0] (shapeCast S1x1 (multiReduction .add [1] S1 (shapeCast S1x8 v shapeCasts_S8_S1x8) 0x00000000#32
      reduces_S1x8_S1 (.inl rfl) rfl) shapeCasts_S1_S1x1) inpos_S1x1_p0_0 = ∑ r : Fin 8, v (ix1 r) := by
  rw [extractAt_11, Cert.LibColumns.shapeCast_a_a1_apply]
  refine (Cert.LibCube.laneSum_ix1 _ _ reduces_S1x8_S1 _ _ (0 : Fin 1)).trans ?_
  exact Finset.sum_congr rfl fun r _ => shapeCast_a_1a_apply v shapeCasts_S8_S1x8 0 r

/-- The body's way of summing an `[8, 64]` block: viewed `[1, 8, 64]`, summed over both long axes, the one entry read. -/
theorem total8x64 (v : FVec Ideal S8x64 .f32) :
    extractAt ![0, 0, 0] (shapeCast S1x1x1 (multiReduction .add [1, 2] S1 (shapeCast S1x8x64 v shapeCasts_S8x64_S1x8x64)
      0x00000000#32 reduces_S1x8x64_S1 (.inl rfl) rfl) shapeCasts_S1_S1x1x1) inpos_S1x1x1_p0_0_0
      = ∑ r : Fin 8, ∑ k : Fin 64, v (ix2 r k) := by
  rw [extractAt_111]
  refine (shapeCast_apply _ shapeCasts_S1_S1x1x1 _ (ix1 (0 : Fin 1)) (by
    rw [Shape.rowMajor_val_three, Shape.rowMajor_val_one]; rfl)).trans ?_
  refine (Ideal.multiReduction_add_total _ _ reduces_S1x8x64_S1 (fun b => by match b with | ⟨0, _⟩ => rfl) _ _ _).trans ?_
  rw [Cert.LibCube.sum_idx_1bc]
  exact Finset.sum_congr rfl fun r _ => Finset.sum_congr rfl fun k _ => shapeCast_ab_1ab_apply v shapeCasts_S8x64_S1x8x64 0 r k

section
variable {u : SU.Idx → EReal} {y : SY.Idx → EReal} {R : Fin 8 → Fin 512}
variable {v2 : FVec Ideal S8x64 .f32} {v5 : FVec Ideal S8x128 .f32} {x1 : FVec Ideal S512x128 .f32}

/-- The row's masked sum over (positive, negative) pairs, as the body takes it: over the positives first. -/
theorem Rows.pay6_apply (h : Rows u y R v2 v5 x1) (r : Fin 8) :
    k0_pay6 (F := Ideal) v2 v5 u x1 (ix1 r) = num u y (R r) := by
  unfold k0_pay6
  refine (Cert.LibCube.laneSum_ix1 _ _ _ _ _ r).trans ?_
  rw [← num_by_negatives]
  refine Finset.sum_congr rfl fun n _ => ?_
  rw [mulf_apply, h.pay3_apply]
  refine congrArg (· * neg y (R r) n) ?_
  refine (Cert.LibCube.midSum_apply _ _ _ _ _ r n).trans ?_
  refine Finset.sum_congr rfl fun p _ => ?_
  rw [mulf_apply]
  have e1 : broadcastTo S8x512x512 (shapeCast S8x512x1 (matmul (φ₁ := .f32) (φ₂ := .f32) dot_S8x64_S512x64_S8x512_1_1_0_0_n_n (some .fp32) v2 u
      (constant S8x512 .f32 0x00000000#32)) shapeCasts_S8x512_S8x512x1) broadcasts_S8x512x1_S8x512x512 (ix3 r p n)
      = ip u (R r) p := by
    rw [Cert.LibBlocks.broadcastTo_ab1_abc_apply, Cert.LibBlocks.shapeCast_ab_ab1_apply, matmul_codes_apply, h.ip_eq]
  have e2 : broadcastTo S8x512x512 (shapeCast S8x1x512 (matmul (φ₁ := .f32) (φ₂ := .f32) dot_S8x64_S512x64_S8x512_1_1_0_0_n_n (some .fp32) v2 u
      (constant S8x512 .f32 0x00000000#32)) shapeCasts_S8x512_S8x1x512) broadcasts_S8x1x512_S8x512x512 (ix3 r p n)
      = ip u (R r) n := by
    rw [Cert.LibCube.broadcastTo_a1c_abc_apply, Cert.LibCube.shapeCast_ab_a1b_apply, matmul_codes_apply, h.ip_eq]
  have e3 : broadcastTo S8x512x512 (shapeCast S8x512x1 (k0_pay2 (F := Ideal) v5 x1) shapeCasts_S8x512_S8x512x1)
      broadcasts_S8x512x1_S8x512x512 (ix3 r p n) = pos y (R r) p := by
    rw [Cert.LibBlocks.broadcastTo_ab1_abc_apply, Cert.LibBlocks.shapeCast_ab_ab1_apply, h.pay2_apply]
  rw [e3]
  refine congrArg (· * pos y (R r) p) ?_
  show Ideal.log1p (Ideal.exp (min hiLit (max loLit (_ - _ - fiveLit)))) - min hiLit (max loLit (_ - _ - fiveLit)) = _
  rw [e1, e2]
  rfl

/-- Whether the row counts, as the body decides it. -/
theorem Rows.pay7_apply (h : Rows u y R v2 v5 x1) (r : Fin 8) :
    k0_pay7 (F := Ideal) (k0_pay4 v5 x1) (k0_pay5 v5 x1) (ix1 r) = validBit y (R r) := by
  unfold k0_pay7
  show IntOp.andi (FloatOps.cmpf .ogt (k0_pay4 (F := Ideal) v5 x1 (ix1 r)) _) (FloatOps.cmpf .ogt (k0_pay5 (F := Ideal) v5 x1 (ix1 r)) _) = _
  rw [h.pay4_apply, h.pay5_apply]
  rfl

/-- Lane 0: the sum over the block's rows of what each adds to the total. -/
theorem Rows.pay8_eq (h : Rows u y R v2 v5 x1) :
    k0_pay8 (F := Ideal) (k0_pay4 v5 x1) (k0_pay5 v5 x1) (k0_pay6 v2 v5 u x1) = ∑ r : Fin 8, contrib u y (R r) := by
  unfold k0_pay8
  refine (total8 _).trans (Finset.sum_congr rfl fun r _ => ?_)
  rw [select_apply, h.pay7_apply, divf_apply, h.pay6_apply, maximumf_apply, mulf_apply, h.pay4_apply, h.pay5_apply]
  rfl

end

end Cert.Dtsh.K

end
-- ==== Proof.KernelBlock.lean ====
/-
  What one grid point of the kernel leaves in its output block, as one pure term of the two staged arrays.

  At grid point `i` the body reads rows `8 i … 8 i + 7` of the codes and of the padded labels, and both arrays whole; its
  single store writes a `[1, 1, 128]` vector computed from those four values. The block the point leaves is that vector.
-/
import proofs.«181431_g38843684225545_feedfinal_248_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The eight rows of the codes the point reads. -/
def rowsU (i : grid0.Coords) (x0 : Vec F S512x64 .f32) : Vec F S8x64 .f32 :=
  View.ld x0 (Rect.unit (s := S512x64) (k0_off1 i) S8x64.size (k0_off1_inb i))

/-- The eight rows of the padded labels the point reads. -/
def rowsY (i : grid0.Coords) (x1 : Vec F S512x128 .f32) : Vec F S8x128 .f32 :=
  View.ld x1 (Rect.unit (s := S512x128) (k0_off2 i) S8x128.size (k0_off2_inb i))

/-- The stored vector as a function of the two row blocks and the two whole arrays. -/
def stored (v2 : Vec F S8x64 .f32) (v5 : Vec F S8x128 .f32) (x0 : Vec F S512x64 .f32) (x1 : Vec F S512x128 .f32) :
    Vec F S1x1x128 .f32 :=
  k0_pay1 (k0_pay8 (k0_pay4 v5 x1) (k0_pay5 v5 x1) (k0_pay6 v2 v5 x0 x1)) k0_pay9
    (k0_pay10 v2 (k0_pay4 v5 x1) (k0_pay5 v5 x1))

/-- The output block after the body at point `i` is the stored vector of the point's rows. -/
theorem out_eq (c : Dev nD) (i : grid0.Coords) (a1 : Memref sig .tc .vmem S512x64 .f32) (h1 : a1.IsWhole)
    (a2 : Memref sig .tc .vmem S512x128 .f32) (h2 : a2.IsWhole) (a3 : Memref sig .tc .vmem S1x1x128 .f32) (h3 : a3.IsWhole)
    (x0 : Vec F S512x64 .f32) (x1 : Vec F S512x128 .f32) :
    out0_A_2 c i a1 h1 a2 h2 a3 h3 x0 x1 = stored (rowsU i x0) (rowsY i x1) x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz3]
  simp only [View.readAt_eq_ld, h1.read_unread, h2.read_unread, View.ld_unit_zero (S := S512x64) hz2,
    View.ld_unit_zero (S := S512x128) hz2]
  rfl

end Cert.KernelIdeal.Block

end
-- ==== Proof.KernelPoint.lean ====
/-
  The stored vector's first three lanes.

  The body places its three numbers in lanes 0, 1 and 2 of a `[1, 1, 128]` vector by comparing a lane counter with
  0, 1 and 2. Lane 0 holds the block's sum of row contributions, lane 1 its number of counting rows, lane 2 its sum of
  `(u - sign u)²`; `sign` is taken as `±1` by the order where `|u| > 0` and as `u` itself at zero, which is the sign
  function at every extended real.
-/
import proofs.«181431_g38843684225545_feedfinal_248_1_alg».proof.Proof.KernelLanes
import proofs.«181431_g38843684225545_feedfinal_248_1_alg».proof.Proof.KernelBlock
import Idealize.ShloMosaic.Lib.Pipeline.Value

noncomputable section

open scoped BigOperators

namespace Cert.Dtsh.K

open Cert.KernelIdeal Cert.KernelIdeal.Gen Cert.KernelIdeal.Block Cert.Dtsh Idealize.ShloMosaic Idealize.ShloMosaic.ValueIdx

/-- A select on "the lane counter equals `c`", read at lane `l`. -/
theorem lane_select {α : Type} (l : Fin 128) (c : BitVec 32) (a b : S1x1x128.Idx → α) :
    select (cmpi .eq (iota .tc S1x1x128 32 [2] iota_S1x1x128_d2_w32) (broadcast S1x1x128 c)) a b
        (ix3 (0 : Fin 1) (0 : Fin 1) l)
      = Scalar.select (IntOp.cmpi .eq (BitVec.ofNat 32 l.val) c) (a (ix3 (0 : Fin 1) (0 : Fin 1) l))
          (b (ix3 (0 : Fin 1) (0 : Fin 1) l)) := by
  rw [select_apply]
  show Scalar.select (IntOp.cmpi .eq (iota .tc S1x1x128 32 [2] iota_S1x1x128_d2_w32 (ix3 (0 : Fin 1) (0 : Fin 1) l)) c) _ _ = _
  rw [iota_single_apply]

theorem eq00 : IntOp.cmpi .eq (BitVec.ofNat 32 (0 : Fin 128).val) 0#32 = 1#1 := by decide
theorem eq10 : IntOp.cmpi .eq (BitVec.ofNat 32 (1 : Fin 128).val) 0#32 = 0#1 := by decide
theorem eq11 : IntOp.cmpi .eq (BitVec.ofNat 32 (1 : Fin 128).val) 1#32 = 1#1 := by decide
theorem eq20 : IntOp.cmpi .eq (BitVec.ofNat 32 (2 : Fin 128).val) 0#32 = 0#1 := by decide
theorem eq21 : IntOp.cmpi .eq (BitVec.ofNat 32 (2 : Fin 128).val) 1#32 = 0#1 := by decide
theorem eq22 : IntOp.cmpi .eq (BitVec.ofNat 32 (2 : Fin 128).val) 2#32 = 1#1 := by decide

section
variable {u : SU.Idx → EReal} {y : SY.Idx → EReal} {R : Fin 8 → Fin 512}
variable {v2 : FVec Ideal S8x64 .f32} {v5 : FVec Ideal S8x128 .f32} {x1 : FVec Ideal S512x128 .f32}

/-- Lane 1 of the second stored value: the number of counting rows of the block. -/
theorem Rows.pay10_lane1 (h : Rows u y R v2 v5 x1) :
    k0_pay10 (F := Ideal) v2 (k0_pay4 v5 x1) (k0_pay5 v5 x1) (ix3 (0 : Fin 1) (0 : Fin 1) (1 : Fin 128))
      = ∑ r : Fin 8, ind (validBit y (R r)) := by
  unfold k0_pay10
  dsimp only
  rw [lane_select, eq11, select_one, broadcast_apply]
  refine (total8 _).trans (Finset.sum_congr rfl fun r _ => ?_)
  rw [sitofp_apply, extui_apply, h.pay7_apply]
  exact ind_setWidth _

/-- Lane 2 of the second stored value: the block's sum of squared distances from the sign. -/
theorem Rows.pay10_lane2 (h : Rows u y R v2 v5 x1) :
    k0_pay10 (F := Ideal) v2 (k0_pay4 v5 x1) (k0_pay5 v5 x1) (ix3 (0 : Fin 1) (0 : Fin 1) (2 : Fin 128))
      = ∑ r : Fin 8, ∑ k : Fin 64, quantAt (u (ix2 (R r) k)) := by
  unfold k0_pay10
  dsimp only
  rw [lane_select, eq21, select_zero, lane_select, eq22, select_one, broadcast_apply]
  refine (total8x64 _).trans (Finset.sum_congr rfl fun r _ => Finset.sum_congr rfl fun k _ => ?_)
  rw [mulf_apply, subf_apply]
  have hs : select (cmpf .ogt (absf v2) (broadcast S8x64 (Scalar.ofBits .f32 0x00000000#32)))
      (select (cmpf .olt v2 (constant S8x64 .f32 0x00000000#32)) (constant S8x64 .f32 0xBF800000#32)
        (constant S8x64 .f32 0x3F800000#32)) v2 (ix2 r k) = Ideal.sign (v2 (ix2 r k)) :=
    Ideal.jnp_sign_eq_sign_f32 (v2 (ix2 r k))
  rw [hs, h.codes]
  rfl

/-- The stored vector at lanes 0, 1, 2. -/
theorem Rows.stored_lane0 (h : Rows u y R v2 v5 x1) :
    stored (F := Ideal) v2 v5 u x1 (ix3 (0 : Fin 1) (0 : Fin 1) (0 : Fin 128)) = ∑ r : Fin 8, contrib u y (R r) := by
  unfold stored k0_pay1 k0_pay9
  dsimp only
  rw [lane_select, eq00, select_one, broadcast_apply, h.pay8_eq]

theorem Rows.stored_lane1 (h : Rows u y R v2 v5 x1) :
    stored (F := Ideal) v2 v5 u x1 (ix3 (0 : Fin 1) (0 : Fin 1) (1 : Fin 128)) = ∑ r : Fin 8, ind (validBit y (R r)) := by
  unfold stored k0_pay1 k0_pay9
  dsimp only
  rw [lane_select, eq10, select_zero, h.pay10_lane1]

theorem Rows.stored_lane2 (h : Rows u y R v2 v5 x1) :
    stored (F := Ideal) v2 v5 u x1 (ix3 (0 : Fin 1) (0 : Fin 1) (2 : Fin 128))
      = ∑ r : Fin 8, ∑ k : Fin 64, quantAt (u (ix2 (R r) k)) := by
  unfold stored k0_pay1 k0_pay9
  dsimp only
  rw [lane_select, eq20, select_zero, h.pay10_lane2]

end

end Cert.Dtsh.K

end
-- ==== Proof.KernelArray.lean ====
/-
  The kernel's output array after the region: block `g` of the `[64, 1, 128]` array is what grid point `g` stored.

  Every point writes its own block back (the block index of the output window is the point's number), the 64 blocks tile
  the array, so the array ends as the function that reads, at `(g, 0, l)`, lane `l` of point `g`'s stored vector.
-/
import proofs.«181431_g38843684225545_feedfinal_248_1_alg».proof.Proof.KernelBlock

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable {F : FTy → Type} [FloatOps F]
variable (m : (ℓ : Loc nD τ sig) → Buf (Elt F) ℓ) (ρ : Dev nD → PrngReg)

/-- The output window's block index at point `t` is `(t, 0, 0)`; the input windows' is `(0, 0)`; the rows the body reads
    start at `8 t`. Decided once over the 64 points. -/
theorem index_facts : ∀ t : Fin cfg0.N, win0_2.index t (0 : Fin 3) = t.val ∧ win0_2.index t (1 : Fin 3) = 0
    ∧ win0_2.index t (2 : Fin 3) = 0 ∧ win0_0.index t (0 : Fin 2) = 0 ∧ win0_0.index t (1 : Fin 2) = 0
    ∧ win0_1.index t (0 : Fin 2) = 0 ∧ win0_1.index t (1 : Fin 2) = 0
    ∧ k0_off1 (grid0.coords t) (0 : Fin 2) = 8 * t.val ∧ k0_off1 (grid0.coords t) (1 : Fin 2) = 0
    ∧ k0_off2 (grid0.coords t) (0 : Fin 2) = 8 * t.val ∧ k0_off2 (grid0.coords t) (1 : Fin 2) = 0 :=
  (by decide +kernel : ∀ t : Fin grid0.N, _)

theorem lt_N (j : S64x1x128.Idx) : (j 0).val < cfg0.N := by
  have h : (j 0).val < 64 := (j 0).isLt
  rw [show cfg0.N = 64 from N_0]; exact h

/-- The array the region leaves: at `(g, a, l)`, point `g`'s stored vector at `(0, a, l)`. -/
def G (c : Dev nD) : S64x1x128.Idx → Elt F .f32 := fun j =>
  outsAt0 m c ⟨(j 0).val, lt_N j⟩ (fun a => match a with
    | ⟨0, _⟩ => (⟨0, Nat.one_pos⟩ : Fin 1)
    | ⟨1, _⟩ => j 1
    | ⟨2, _⟩ => j 2)

/-- Reading it at an index whose first coordinate is `t` and whose others are `y`'s gives point `t`'s vector at `y`. -/
theorem G_at (c : Dev nD) (t : Fin cfg0.N) (y : S1x1x128.Idx) (j : S64x1x128.Idx) (h0 : (j 0).val = t.val)
    (h1 : (j 1).val = (y 1).val) (h2 : (j 2).val = (y 2).val) : G m c j = outsAt0 m c t y := by
  unfold G
  rw [show (⟨(j 0).val, lt_N j⟩ : Fin cfg0.N) = t from Fin.ext h0]
  refine congrArg (outsAt0 m c t) (funext fun a => ?_)
  match a with
  | ⟨0, _⟩ => exact Fin.ext (by have h : (y 0).val < 1 := (y 0).isLt; show 0 = (y 0).val; omega)
  | ⟨1, _⟩ => exact Fin.ext h1
  | ⟨2, _⟩ => exact Fin.ext h2

/-- What point `t` writes back is block `t` of that array. -/
theorem flushed_eq (c : Dev nD) (t : Fin cfg0.N) :
    (dats m 0 c).flushed 2 t = ((cfg0.win 2).blk t).view.read (Elt F) (G m c) := by
  show (cfg0.win 2).cut (grid0.coords t) ((dats m 0 c).after 2 t) = _
  rw [after0_2]
  obtain ⟨e0, e1, e2, -⟩ := index_facts t
  funext y
  show outsAt0 m c t y = G m c (((cfg0.win 2).blk t).view.emb y)
  refine (G_at m c t y _ ?_ ?_ ?_).symm
  · show win0_2.index t (0 : Fin 3) * 1 + 1 * (y 0).val = t.val
    have h : (y 0).val < 1 := (y 0).isLt
    omega
  · show win0_2.index t (1 : Fin 3) * 1 + 1 * (y 1).val = (y 1).val
    omega
  · show win0_2.index t (2 : Fin 3) * 128 + 1 * (y 2).val = (y 2).val
    omega

/-- An index of the array is in point `t`'s block iff each coordinate is in the block's range on its axis. -/
theorem mem_blk (t : Fin cfg0.N) (i : S64x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v1).slice (win0_2.rect t)).set ↔ _
  rw [View.set_slice_whole, Rect.mem_set_unit]
  exact Iff.rfl

/-- Every index is in the block of the point its first coordinate names. -/
theorem cover (i : S64x1x128.Idx) : ∃ t : Fin cfg0.N, (cfg0.win 2).flush t = true ∧ i ∈ ((cfg0.win 2).blk t).view.set := by
  refine ⟨⟨(i 0).val, lt_N i⟩, flush0_2 _, ?_⟩
  rw [mem_blk]
  obtain ⟨e0', e1, e2, -⟩ := index_facts ⟨(i 0).val, lt_N i⟩
  have e0 : win0_2.index ⟨(i 0).val, lt_N i⟩ (0 : Fin 3) = (i 0).val := e0'
  have h1 : (i 1).val < 1 := (i 1).isLt
  have h2 : (i 2).val < 128 := (i 2).isLt
  intro a
  match a with
  | ⟨0, _⟩ =>
    show win0_2.index ⟨(i 0).val, lt_N i⟩ (0 : Fin 3) * 1 ≤ (i 0).val ∧ (i 0).val < win0_2.index ⟨(i 0).val, lt_N i⟩ (0 : Fin 3) * 1 + 1
    rw [e0]; omega
  | ⟨1, _⟩ =>
    show win0_2.index ⟨(i 0).val, lt_N i⟩ (1 : Fin 3) * 1 ≤ (i 1).val ∧ (i 1).val < win0_2.index ⟨(i 0).val, lt_N i⟩ (1 : Fin 3) * 1 + 1
    rw [e1]; omega
  | ⟨2, _⟩ =>
    show win0_2.index ⟨(i 0).val, lt_N i⟩ (2 : Fin 3) * 128 ≤ (i 2).val ∧ (i 2).val < win0_2.index ⟨(i 0).val, lt_N i⟩ (2 : Fin 3) * 128 + 128
    rw [e2]; omega

/-- So the output array ends as `G`. -/
theorem final (c : Dev nD) : (dats m 0 c).arrAt 2 cfg0.N = G m c :=
  (dats m 0 c).arrAt_eq_of_cover 2 (G m c) (fun t _ => flushed_eq m c t) (cover)

end Cert.KernelIdeal.Block

end
-- ==== Proof.KernelTail.lean ====
/-
  The host operations around the region, as pure functions.

  Before the region the labels are padded with zeros from 100 to 128 columns. After it the `[64, 1, 128]` array of the
  points' stored vectors is summed over the 64 points, lanes 0, 1 and 2 of the sum are read as the loss total, the
  number of counting rows and the quantization total, and the loss is
  `(count > 0 ? total / max count 1 : 0) + (1 · quant) / 32768`.
-/
import proofs.«181431_g38843684225545_feedfinal_248_1_alg».proof.Proof.KernelArray
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Block

open Cert.KernelIdeal Cert.KernelIdeal.Gen

variable {F : FTy → Type} [FloatOps F]
variable (m : (ℓ : Loc nD τ sig) → Buf (Elt F) ℓ) (ρ : Dev nD → PrngReg)

/-- The labels as the region finds them: padded with the converted integer zero. -/
def padded (y : S512x100.Idx → Elt F .f32) : S512x128.Idx → Elt F .f32 :=
  pad S512x128 ![0, 0] ![0, 28] ![0, 0] y (sitofp (F := F) .f32 (constantI S_ 32 0#32)) pads_S512x100_S512x128_000_0280 h_S_

/-- The sum over the points of the stored vectors, lane by lane. -/
def laneSums (a : S64x1x128.Idx → Elt F .f32) : S128.Idx → Elt F .f32 :=
  Host.reduceAdd (shapeCast S64x128 a shapeCasts_S64x1x128_S64x128) (constant S_ .f32 0x00000000#32) reducesTo_S64x128_S128_d0 h_S_

/-- Lane `0`, `1` or `2` of it as a scalar. -/
def lane0 (s : S128.Idx → Elt F .f32) : S_.Idx → Elt F .f32 := shapeCast S_ (extractStridedSlice S1 ![0] s slices_S128_S1_0) shapeCasts_S1_S_
def lane1 (s : S128.Idx → Elt F .f32) : S_.Idx → Elt F .f32 := shapeCast S_ (extractStridedSlice S1 ![1] s slices_S128_S1_1) shapeCasts_S1_S_
def lane2 (s : S128.Idx → Elt F .f32) : S_.Idx → Elt F .f32 := shapeCast S_ (extractStridedSlice S1 ![2] s slices_S128_S1_2) shapeCasts_S1_S_

/-- The loss from the three totals. -/
def combine (total count quant : S_.Idx → Elt F .f32) : S_.Idx → Elt F .f32 :=
  addf (select (cmpf .ogt count (constant S_ .f32 0x00000000#32))
      (Host.divf total (maximumf count (constant S_ .f32 0x3F800000#32))) (constant S_ .f32 0x00000000#32))
    (Host.divf (mulf (constant S_ .f32 0x3F800000#32) quant) (constant S_ .f32 0x47000000#32))

/-- The operations after the region, of the region's output array. -/
def tail (a : S64x1x128.Idx → Elt F .f32) : S_.Idx → Elt F .f32 :=
  combine (lane0 (laneSums a)) (lane1 (laneSums a)) (lane2 (laneSums a))

/-- The program's result is the tail of the output array the region leaves. -/
theorem result_eq (c : Dev nD) :
    Pipeline.afterTail₀ cfgs (dats m) 0 (V0 m) [hostOps1, hostOps1_1, hostOps1_2] c main_v16 = tail (G m c) := by
  unfold Pipeline.afterTail₀
  simp only [hostOps1, hostOps1_1, hostOps1_2, List.flatten_cons, List.flatten_nil, List.append_nil, List.cons_append, List.nil_append]
  after_results
  rw [show Pipeline.withArrays (cfgs 0).spec c (V0 m c) (fun w => (dats m 0 c).arrAt w (cfgs 0).N) (Proc.tc.devRef main_v1) = G m c from
    (Pipeline.withArrays_arr spec0 launch0.win.arr_inj c _ _ 2).trans (final m c)]
  rfl

/-- The staged labels are the padded labels. -/
theorem labels_eq (c : Dev nD) :
    (V m c main_v0 : S512x128.Idx → Elt F .f32) = padded (m ((c : Thread nD τ).loc main_arg1)) := by
  dsimp only [Gen.V, Gen.V0]
  simp only [Gen.hostOps0, Gen.hostOps0_1, List.flatten_cons, List.flatten_nil, List.append_nil, List.cons_append, List.nil_append]
  after_results
  rfl

end Cert.KernelIdeal.Block

end
-- ==== Proof.KernelTailValue.lean ====
/-
  The host operations around the region, read at an index over the extended reals.

  The padded labels at (p, c) are the labels at (p, c) for c below 100 and zero from there on. After the region, the
  sum over the 64 points of the stored vectors is read at lanes 0, 1 and 2, and the result is
  (count > 0 ? total / max count 1 : 0) + (1 * quant) / 32768 of those three sums.
-/
import proofs.«181431_g38843684225545_feedfinal_248_1_alg».proof.Proof.KernelTail
import proofs.«181431_g38843684225545_feedfinal_248_1_alg».proof.Proof.Spec
import proofs.«181431_g38843684225545_feedfinal_248_1_alg».proof.Proof.LibBlocks
import proofs.«181431_g38843684225545_feedfinal_248_1_alg».proof.Proof.LibCube
import Idealize.ShloMosaic.Lib.KernelVsHost
import Idealize.ShloMosaic.Lib.ValueLayout
import Idealize.ShloMosaic.Lib.IdealHost
import Idealize.ShloMosaic.PureOps.Ideal.Laws

noncomputable section

open scoped BigOperators

namespace Cert.Dtsh.K

open Cert.KernelIdeal Cert.KernelIdeal.Gen Cert.KernelIdeal.Block Cert.Dtsh Idealize.ShloMosaic
  Idealize.ShloMosaic.ValueIdx

/-- The padded labels at (p, c): the labels there for c below 100, zero from there on. -/
theorem padded_apply (y : SY.Idx → EReal) (p : Fin 512) (c : Fin 128) :
    padded (F := Ideal) y (ix2 p c) = if h : c.val < 100 then y (ix2 p ⟨c.val, h⟩) else 0 := by
  unfold padded
  by_cases h : c.val < 100
  · rw [dif_pos h]
    exact pad_apply_of_inside _ _ _ y _ pads_S512x100_S512x128_000_0280 h_S_ (ix2 p c) (ix2 p ⟨c.val, h⟩) (fun a => by
      match a with
      | ⟨0, _⟩ => show p.val = 0 + p.val * (0 + 1); omega
      | ⟨1, _⟩ => show c.val = 0 + c.val * (0 + 1); omega)
  · rw [dif_neg h]
    refine (pad_apply_of_not_inside _ _ _ y _ pads_S512x100_S512x128_000_0280 h_S_ (ix2 p c) (1 : Fin 2)
      (fun hin => ?_)).trans ?_
    · have e : (c.val - 0) / (0 + 1) < 100 := hin.2.2
      omega
    · show ((((0#32 : BitVec 32).toInt : ℤ) : ℝ) : EReal) = 0
      simp

/-- The sum over the points at lane l. -/
theorem laneSums_apply (a : S64x1x128.Idx → EReal) (l : Fin 128) :
    laneSums (F := Ideal) a (ix1 l) = ∑ g : Fin 64, a (ix3 g (0 : Fin 1) l) := by
  unfold laneSums
  have h : S64x128.Reduces [0] S128 := by decide
  rw [hostReduceAdd_apply, Ideal.hostReduceAdd_single reducesTo_S64x128_S128_d0 h]
  show Ideal.ofBits .f32 0x00000000#32
    + (∑ g : Fin 64, shapeCast S64x128 a shapeCasts_S64x1x128_S64x128 (h.lift (ix1 l) g)) = _
  rw [Ideal.ofBits_zero_f32, zero_add]
  refine Finset.sum_congr rfl fun g _ => ?_
  rw [Cert.LibCube.lift_first h l g]
  exact Cert.LibBlocks.shapeCast_a1b_ab_apply a shapeCasts_S64x1x128_S64x128 g l

/-- The one index of the scalar shape sits at the row-major position of the one index of the shape [1]. -/
theorem pos_S1_S_ (i : S_.Idx) : (S1.rowMajor (ix1 (0 : Fin 1))).val = (S_.rowMajor i).val := by
  rw [Shape.rowMajor_val_one]
  exact (Shape.rowMajorPi_zero _ i).symm

/-- Lane 0 of a [128] array as a scalar. -/
theorem lane0_apply (s : S128.Idx → EReal) (i : S_.Idx) : lane0 (F := Ideal) s i = s (ix1 (0 : Fin 128)) := by
  unfold lane0
  refine (shapeCast_apply _ shapeCasts_S1_S_ i (ix1 (0 : Fin 1)) (pos_S1_S_ i)).trans ?_
  exact extractStridedSlice_apply ![0] s slices_S128_S1_0 (ix1 (0 : Fin 1)) (ix1 (0 : Fin 128)) (fun a => by
    match a with
    | ⟨0, _⟩ => rfl)

/-- Lane 1 of a [128] array as a scalar. -/
theorem lane1_apply (s : S128.Idx → EReal) (i : S_.Idx) : lane1 (F := Ideal) s i = s (ix1 (1 : Fin 128)) := by
  unfold lane1
  refine (shapeCast_apply _ shapeCasts_S1_S_ i (ix1 (0 : Fin 1)) (pos_S1_S_ i)).trans ?_
  exact extractStridedSlice_apply ![1] s slices_S128_S1_1 (ix1 (0 : Fin 1)) (ix1 (1 : Fin 128)) (fun a => by
    match a with
    | ⟨0, _⟩ => rfl)

/-- Lane 2 of a [128] array as a scalar. -/
theorem lane2_apply (s : S128.Idx → EReal) (i : S_.Idx) : lane2 (F := Ideal) s i = s (ix1 (2 : Fin 128)) := by
  unfold lane2
  refine (shapeCast_apply _ shapeCasts_S1_S_ i (ix1 (0 : Fin 1)) (pos_S1_S_ i)).trans ?_
  exact extractStridedSlice_apply ![2] s slices_S128_S1_2 (ix1 (0 : Fin 1)) (ix1 (2 : Fin 128)) (fun a => by
    match a with
    | ⟨0, _⟩ => rfl)

/-- The loss from the three totals, read at the scalar's index. -/
theorem combine_apply (t c q : S_.Idx → EReal) (i : S_.Idx) :
    combine (F := Ideal) t c q i
      = Scalar.select (Ideal.cmp .ogt (c i) zeroLit) (Ideal.div (t i) (max (c i) oneLit)) zeroLit
        + Ideal.div (oneLit * q i) sizeLit := rfl

/-- The operations after the region, of the region's output array: the loss from the three lane sums. -/
theorem tail_apply (a : S64x1x128.Idx → EReal) :
    tail (F := Ideal) a = fun _ =>
      Scalar.select (Ideal.cmp .ogt (∑ g : Fin 64, a (ix3 g (0 : Fin 1) (1 : Fin 128))) zeroLit)
        (Ideal.div (∑ g : Fin 64, a (ix3 g (0 : Fin 1) (0 : Fin 128)))
          (max (∑ g : Fin 64, a (ix3 g (0 : Fin 1) (1 : Fin 128))) oneLit)) zeroLit
      + Ideal.div (oneLit * ∑ g : Fin 64, a (ix3 g (0 : Fin 1) (2 : Fin 128))) sizeLit := by
  funext i
  unfold tail
  rw [combine_apply, lane0_apply, lane1_apply, lane2_apply, laneSums_apply, laneSums_apply, laneSums_apply]

end Cert.Dtsh.K

end
-- ==== Proof.KernelLoss.lean ====
/-
  The kernel program's result is the loss.

  Grid point `g` reads rows `8 g … 8 g + 7` of the codes and of the zero-padded labels, so its three stored lanes are the
  sums over those rows of the row contributions, of the counting indicators, and of the squared distances from the
  sign. Summing over the 64 points gives the sums over all 512 rows, and the host's last lines form the loss from them.
-/
import proofs.«181431_g38843684225545_feedfinal_248_1_alg».proof.Proof.KernelPoint
import proofs.«181431_g38843684225545_feedfinal_248_1_alg».proof.Proof.KernelTailValue

set_option maxRecDepth 16384

noncomputable section

open scoped BigOperators

namespace Cert.Dtsh.K

open Cert.KernelIdeal Cert.KernelIdeal.Gen Cert.KernelIdeal.Block Cert.Dtsh Idealize.ShloMosaic Idealize.ShloMosaic.ValueIdx
open Idealize.ShloMosaic.TcCoe Idealize.SL.Sem

/-- Row `r` of block `g`. -/
def rowOf (g : ℕ) (hg : g < 64) (r : Fin 8) : Fin 512 := ⟨8 * g + r.val, by have := r.isLt; omega⟩

/-- A sum over the 512 rows is the sum over the 64 blocks of the sums over each block's 8 rows. -/
theorem sum_rows {M : Type*} [AddCommMonoid M] (f : Fin 512 → M) :
    ∑ g : Fin 64, ∑ r : Fin 8, f (rowOf g.val g.isLt r) = ∑ R : Fin 512, f R := by
  rw [← Cert.LibCube.sum_runs (m := 64) (n := 8) (f := f)]
  refine Finset.sum_congr rfl fun g _ => Finset.sum_congr rfl fun r _ => congrArg f (Fin.ext ?_)
  show 8 * g.val + r.val = (finProdFinEquiv (g, r)).val
  simp [finProdFinEquiv]
  omega

variable (m : (ℓ : Loc nD τ sig) → Buf (Elt Ideal) ℓ)

theorem lt64 (t : Fin cfg0.N) : t.val < 64 := Nat.lt_of_lt_of_eq t.isLt N_0

/-- Block `g` as a grid point. -/
def pt (g : Fin 64) : Fin cfg0.N := ⟨g.val, Nat.lt_of_lt_of_eq g.isLt N_0.symm⟩

/-- The rows of the codes point `t` reads are rows `8 t + r`. -/
theorem rowsU_apply (t : Fin cfg0.N) (x0 : S512x64.Idx → EReal) (r : Fin 8) (k : Fin 64) :
    rowsU (F := Ideal) (grid0.coords t) x0 (ix2 r k) = x0 (ix2 (rowOf t.val (lt64 t) r) k) := by
  obtain ⟨-, -, -, -, -, -, -, o0, o1, -, -⟩ := index_facts t
  unfold rowsU
  show x0 _ = x0 _
  congr 1
  funext ax
  apply Fin.ext
  match ax with
  | ⟨0, _⟩ => show k0_off1 (grid0.coords t) (0 : Fin 2) + 1 * r.val = 8 * t.val + r.val; omega
  | ⟨1, _⟩ => show k0_off1 (grid0.coords t) (1 : Fin 2) + 1 * k.val = k.val; omega

/-- The rows of the padded labels point `t` reads are rows `8 t + r`. -/
theorem rowsY_apply (t : Fin cfg0.N) (x1 : S512x128.Idx → EReal) (r : Fin 8) (c : Fin 128) :
    rowsY (F := Ideal) (grid0.coords t) x1 (ix2 r c) = x1 (ix2 (rowOf t.val (lt64 t) r) c) := by
  obtain ⟨-, -, -, -, -, -, -, -, -, o0, o1⟩ := index_facts t
  unfold rowsY
  show x1 _ = x1 _
  congr 1
  funext ax
  apply Fin.ext
  match ax with
  | ⟨0, _⟩ => show k0_off2 (grid0.coords t) (0 : Fin 2) + 1 * r.val = 8 * t.val + r.val; omega
  | ⟨1, _⟩ => show k0_off2 (grid0.coords t) (1 : Fin 2) + 1 * c.val = c.val; omega

/-- Each input window's one block is its whole array: the codes as launched, -/
theorem iblk0_eq (c : Dev nD) (t : Fin cfg0.N) :
    (iblk m c 0 t : S512x64.Idx → EReal) = m ((c : Thread nD τ).loc main_arg0) := by
  obtain ⟨-, -, -, i0, i1, -⟩ := index_facts t
  funext j
  unfold iblk
  rw [View.read_apply]
  show V m c main_arg0 (((cfg0.win 0).blk t).view.emb j) = _
  rw [V_main_arg0]
  refine congrArg _ (funext fun a => Fin.ext ?_)
  match a with
  | ⟨0, _⟩ => show win0_0.index t (0 : Fin 2) * 512 + 1 * (j 0).val = (j 0).val; omega
  | ⟨1, _⟩ => show win0_0.index t (1 : Fin 2) * 64 + 1 * (j 1).val = (j 1).val; omega

/-- and the padded labels. -/
theorem iblk1_eq (c : Dev nD) (t : Fin cfg0.N) :
    (iblk m c 1 t : S512x128.Idx → EReal) = padded (F := Ideal) (m ((c : Thread nD τ).loc main_arg1)) := by
  obtain ⟨-, -, -, -, -, i0, i1, -⟩ := index_facts t
  funext j
  unfold iblk
  rw [View.read_apply]
  show V m c main_v0 (((cfg0.win 1).blk t).view.emb j) = _
  rw [labels_eq]
  refine congrArg _ (funext fun a => Fin.ext ?_)
  match a with
  | ⟨0, _⟩ => show win0_1.index t (0 : Fin 2) * 512 + 1 * (j 0).val = (j 0).val; omega
  | ⟨1, _⟩ => show win0_1.index t (1 : Fin 2) * 128 + 1 * (j 1).val = (j 1).val; omega

/-- What point `t` loads, in terms of the inputs. -/
theorem point_rows (c : Dev nD) (t : Fin cfg0.N) :
    Rows (m ((c : Thread nD τ).loc main_arg0)) (m ((c : Thread nD τ).loc main_arg1)) (rowOf t.val (lt64 t))
      (rowsU (F := Ideal) (grid0.coords t) (m ((c : Thread nD τ).loc main_arg0)))
      (rowsY (F := Ideal) (grid0.coords t) (padded (F := Ideal) (m ((c : Thread nD τ).loc main_arg1))))
      (padded (F := Ideal) (m ((c : Thread nD τ).loc main_arg1))) where
  codes r k := rowsU_apply t _ r k
  labels r c' := rowsY_apply t _ r c'
  padded p c' := padded_apply _ p c'

/-- The output array at block `g`, lane `l`: point `g`'s stored vector at lane `l`. -/
theorem G_lane (c : Dev nD) (g : Fin 64) (l : Fin 128) :
    G m c (ix3 g (0 : Fin 1) l)
      = stored (F := Ideal) (rowsU (F := Ideal) (grid0.coords (pt g)) (m ((c : Thread nD τ).loc main_arg0)))
          (rowsY (F := Ideal) (grid0.coords (pt g)) (padded (F := Ideal) (m ((c : Thread nD τ).loc main_arg1))))
          (m ((c : Thread nD τ).loc main_arg0)) (padded (F := Ideal) (m ((c : Thread nD τ).loc main_arg1)))
          (ix3 (0 : Fin 1) (0 : Fin 1) l) := by
  refine (G_at m c (pt g) (ix3 (0 : Fin 1) (0 : Fin 1) l) (ix3 g (0 : Fin 1) l) rfl rfl rfl).trans ?_
  unfold outsAt0
  rw [out_eq, iblk0_eq, iblk1_eq]

/-- The kernel program's result is the loss of its two inputs. -/
theorem kernel_loss (c : Dev nD) :
    tail (F := Ideal) (G m c) = fun _ => loss (m ((c : Thread nD τ).loc main_arg0)) (m ((c : Thread nD τ).loc main_arg1)) := by
  rw [tail_apply]
  funext _
  have h0 : ∑ g : Fin 64, G m c (ix3 g (0 : Fin 1) (0 : Fin 128)) = lossSum (m ((c : Thread nD τ).loc main_arg0)) (m ((c : Thread nD τ).loc main_arg1)) := by
    unfold lossSum
    rw [← sum_rows]
    exact Finset.sum_congr rfl fun g _ => (G_lane m c g 0).trans (point_rows m c _).stored_lane0
  have h1 : ∑ g : Fin 64, G m c (ix3 g (0 : Fin 1) (1 : Fin 128)) = count (m ((c : Thread nD τ).loc main_arg1)) := by
    unfold count
    rw [← sum_rows]
    exact Finset.sum_congr rfl fun g _ => (G_lane m c g 1).trans (point_rows m c _).stored_lane1
  have h2 : ∑ g : Fin 64, G m c (ix3 g (0 : Fin 1) (2 : Fin 128)) = quant (m ((c : Thread nD τ).loc main_arg0)) := by
    unfold quant
    rw [← sum_rows]
    exact Finset.sum_congr rfl fun g _ => (G_lane m c g 2).trans (point_rows m c _).stored_lane2
  rw [h0, h1, h2, scale_quant]
  rfl

end Cert.Dtsh.K

end
-- ==== Proof.lean ====
/-
  The certificate of the DTSH ranking loss: a Pallas kernel that handles eight rows per grid point against the whole
  arrays, with a host tail that sums the points' partial results, equals the reference that materializes every
  (row, positive, negative) triple at once — as extended reals.

  Both programs compute, for codes `u : [512, 64]` and labels `y : [512, 100]`, the loss `Cert.Dtsh.loss u y` of
  Proof/Spec.lean. The reference does so stage by stage (Proof/RefStages.lean). The kernel's grid point `g` stores three
  numbers for rows `8 g … 8 g + 7` (Proof/KernelCounts.lean, KernelLanes.lean, KernelPoint.lean), the region leaves the
  64 stored vectors as the blocks of its output array (Proof/KernelArray.lean), and the host lines after it add them up
  and combine them (Proof/KernelTail.lean, KernelTailValue.lean, KernelLoss.lean). Three facts join the two
  arrangements (Proof/SpecLaws.lean): the negative-pair indicator is `0` or `1`, so weighting a row's sum over the
  positives by it is summing over pairs; the 28 zero columns the kernel pads the labels with add `0 · 0` to each
  overlap; and scaling by one commutes with the division by the number of entries. No finiteness of the inputs is needed.

  The frames of the two kernel programs are the generated ones; the reference's frame is its run with the result
  dropped; the one idealization site is the sign-bit rule's statement.
-/
import proofs.«181431_g38843684225545_feedfinal_248_1_alg».proof.Defs
import proofs.«181431_g38843684225545_feedfinal_248_1_alg».proof.Proof.Gen.Kernel
import proofs.«181431_g38843684225545_feedfinal_248_1_alg».proof.Proof.Gen.Kernel.Frame
import proofs.«181431_g38843684225545_feedfinal_248_1_alg».proof.Proof.Gen.KernelIdeal
import proofs.«181431_g38843684225545_feedfinal_248_1_alg».proof.Proof.Gen.KernelIdeal.Frame
import proofs.«181431_g38843684225545_feedfinal_248_1_alg».proof.Proof.Gen.ReferenceIdeal
import proofs.«181431_g38843684225545_feedfinal_248_1_alg».proof.Proof.Gen.Pre_finite_inputs
import proofs.«181431_g38843684225545_feedfinal_248_1_alg».proof.Proof.RefStages
import proofs.«181431_g38843684225545_feedfinal_248_1_alg».proof.Proof.KernelLoss
import Idealize.ShloMosaic.Adequacy
import Idealize.ShloMosaic.Init

set_option maxRecDepth 16384

noncomputable section

namespace Cert.Proof

open Idealize.ShloMosaic Idealize.ShloMosaic.TcCoe Idealize.SL.Sem

/-- The idealized kernel program runs, ends with its result at the host tail of the region's output array, and leaves
    its arguments unchanged. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => ∀ c : Dev Cert.KernelIdeal.nD,
        r.2.mem ((c.tc : Thread Cert.KernelIdeal.nD Cert.KernelIdeal.τ).loc Cert.KernelIdeal.main_v16)
          = Cert.KernelIdeal.Block.tail (Cert.KernelIdeal.Block.G m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v16 (Pipeline.mem_restRefs_of Cert.KernelIdeal.main_v16 (by decide) (by decide))).trans
        (Cert.KernelIdeal.Block.result_eq m c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one idealization site: the sign bit read off the value. -/
theorem preserves : Cert.preserves_Kernel_KernelIdeal := IdealRules.sign_bit.statement Cert.KernelIdeal.S8x64 .f32

/-- Both idealized programs end at the loss of the same two arrays. -/
theorem algebraic : Cert.algebraic_KernelIdeal_ReferenceIdeal := by
  intro m ρ m' ρ' _ hagree
  refine ⟨fun c => fun _ => Cert.Dtsh.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.Dtsh.K.kernel_loss m c), (h c).2⟩)
      (kernel_run (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v53_eq, Cert.Dtsh.ref_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
